-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x6144 : Shape := ⟨2, ![4096, 6144]⟩
abbrev S6144 : Shape := ⟨1, ![6144]⟩
abbrev S4096x2048 : Shape := ⟨2, ![4096, 2048]⟩
abbrev S_ : Shape := ⟨0, ![]⟩

class Facts : Prop where
  bcast_S_S4096x6144 : S_.BroadcastsInDim S4096x6144 (![] : Fin 0 → Fin S4096x6144.rank)
  reducesTo_S4096x6144_S_d0_1 : S4096x6144.ReducesTo [0, 1] S_
  h_S_ : 0 < S_.numel
  bcast_S_S6144 : S_.BroadcastsInDim S6144 (![] : Fin 0 → Fin S6144.rank)
  reducesTo_S6144_S_d0 : S6144.ReducesTo [0] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_arg4 : FVec F S4096x2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  main_v23

def fn {F : FTy → Type} [FloatOps F] (main_arg0 : FVec F S4096x6144 .f32) (main_arg1 : FVec F S6144 .f32) (main_arg2 : FVec F S4096x2048 .f32) (main_arg3 : FVec F S4096x2048 .f32) (main_arg4 : FVec F S4096x2048 .f32) : IVec S_ 1 :=
  let main_v0 : FVec F S4096x6144 .f32 := Host.absf main_arg0
  let main_cst : FVec F S_ .f32 := constant S_ .f32 0x7F800000#32
  let main_v1 : FVec F S4096x6144 .f32 := broadcastInDim S4096x6144 ![] bcast_S_S4096x6144 main_cst
  let main_v2 : IVec S4096x6144 1 := cmpf .olt main_v0 main_v1
  let main_c : IVec S_ 1 := constantI S_ 1 1#1
  let main_v3 : IVec S_ 1 := (fun x v => Host.reduce IntOp.andi x v reducesTo_S4096x6144_S_d0_1 h_S_) main_v2 main_c
  let main_v4 : FVec F S6144 .f32 := Host.absf main_arg1
  let main_cst_0 : FVec F S_ .f32 := constant S_ .f32 0x7F800000#32
  let main_v5 : FVec F S6144 .f32 := broadcastInDim S6144 ![] bcast_S_S6144 main_cst_0
  let main_v6 : IVec S6144 1 := cmpf .olt main_v4 main_v5
  let main_c_1 : IVec S_ 1 := constantI S_ 1 1#1
  let main_v7 : IVec S_ 1 := (fun x v => Host.reduce IntOp.andi x v reducesTo_S6144_S_d0 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_v13 main_v16
-- ==== Kernel.lean ====
abbrev S4096x6144 : Shape := ⟨2, ![4096, 6144]⟩
abbrev S6144 : Shape := ⟨1, ![6144]⟩
abbrev S4096x2048 : Shape := ⟨2, ![4096, 2048]⟩
abbrev S4096x4096 : Shape := ⟨2, ![4096, 4096]⟩
abbrev S256x1024 : Shape := ⟨2, ![256, 1024]⟩
abbrev S1024x6144 : Shape := ⟨2, ![1024, 6144]⟩
abbrev S256x2048 : Shape := ⟨2, ![256, 2048]⟩
abbrev S256x6144 : Shape := ⟨2, ![256, 6144]⟩
abbrev S2048 : Shape := ⟨1, ![2048]⟩
abbrev S1x2048 : Shape := ⟨2, ![1, 2048]⟩

abbrev nBuf : Space → Nat
  | .hbm => 10
  | .vmem => 9
  | .smem => 0
  | _ => 0

abbrev bufTy : (tb : Table) → Fin (tcTables nBuf tb) → BufTy
  | .hbm, ⟨0, _⟩ => ⟨S4096x6144, .f32⟩
  | .hbm, ⟨1, _⟩ => ⟨S6144, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x4096, .f32⟩
  | .hbm, ⟨6, _⟩ => ⟨S4096x4096, .bf16⟩
  | .hbm, ⟨7, _⟩ => ⟨S4096x6144, .bf16⟩
  | .hbm, ⟨8, _⟩ => ⟨S4096x2048, .f32⟩
  | .hbm, ⟨9, _⟩ => ⟨S4096x2048, .f32⟩
  | .local _ .vmem, ⟨0, _⟩ => ⟨S256x1024, .bf16⟩
  | .local _ .vmem, ⟨1, _⟩ => ⟨S256x1024, .bf16⟩
  | .local _ .vmem, ⟨2, _⟩ => ⟨S1024x6144, .bf16⟩
  | .local _ .vmem, ⟨3, _⟩ => ⟨S1024x6144, .bf16⟩
  | .local _ .vmem, ⟨4, _⟩ => ⟨S6144, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x6144, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x6144 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

class Facts₀ : Prop where
  concatenates_S4096x2048_S4096x2048_S4096x4096_d1 : Shape.Concatenates [S4096x2048, S4096x2048] S4096x4096 1
  bitsLt_bf16_f32 : FTy.bits .bf16 < FTy.bits .f32
  inb_S256x6144_S256x6144_0_0 : ∀ a, (![0, 0] : Fin 2 → Nat) a + S256x6144.size a ≤ S256x6144.size a
  h_S256x6144 : 0 < S256x6144.numel
  shapeCasts_S256x6144_S256x6144 : S256x6144.ShapeCasts S256x6144
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x6144_S1024x6144_0_0 : ∀ a, (![0, 0] : Fin 2 → Nat) a + S1024x6144.size a ≤ S1024x6144.size a
  h_S1024x6144 : 0 < S1024x6144.numel
  shapeCasts_S1024x6144_S1024x6144 : S1024x6144.ShapeCasts S1024x6144
  inb_S6144_S2048_0 : ∀ a, (![0] : Fin 1 → Nat) a + S2048.size a ≤ S6144.size a
  h_S2048 : 0 < S2048.numel
  inb_S6144_S2048_2048 : ∀ a, (![2048] : Fin 1 → Nat) a + S2048.size a ≤ S6144.size a
  inb_S6144_S2048_4096 : ∀ a, (![4096] : Fin 1 → Nat) a + S2048.size a ≤ S6144.size a
  inb_S256x6144_S256x2048_0_0 : ∀ a, (![0, 0] : Fin 2 → Nat) a + S256x2048.size a ≤ S256x6144.size a
  h_S256x2048 : 0 < S256x2048.numel
  shapeCasts_S2048_S1x2048 : S2048.ShapeCasts S1x2048
  broadcasts_S1x2048_S256x2048 : S1x2048.Broadcasts S256x2048
  inb_S256x6144_S256x2048_0_4096 : ∀ a, (![0, 4096] : Fin 2 → Nat) a + S256x2048.size a ≤ S256x6144.size a
  inb_S256x2048_S256x2048_0_0 : ∀ a, (![0, 0] : Fin 2 → Nat) a + S256x2048.size a ≤ S256x2048.size a
  inb_S256x6144_S256x2048_0_2048 : ∀ a, (![0, 2048] : Fin 2 → Nat) a + S256x2048.size a ≤ S256x6144.size a
  dot_S256x1024_S1024x6144_S256x6144_1_0_0_1_n_n_wf : DotDims.WF S256x1024 S1024x6144 S256x6144 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x4096.size a
  hwx0_0 : ∀ i : grid0.Coords, EltTy.bits .bf16 = 32 ∨ (Rect.block (s := S4096x4096) S256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x6144.size a ≤ S4096x6144.size a
  hwx0_1 : ∀ i : grid0.Coords, EltTy.bits .bf16 = 32 ∨ (Rect.block (s := S4096x6144) S1024x6144.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6144.size a ≤ S6144.size a
  hwx0_2 : ∀ i : grid0.Coords, EltTy.bits .f32 = 32 ∨ (Rect.block (s := S6144) S6144.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S4096x2048.size a
  hwx0_3 : ∀ i : grid0.Coords, EltTy.bits .f32 = 32 ∨ (Rect.block (s := S4096x2048) S256x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S4096x2048.size a
  hwx0_4 : ∀ i : grid0.Coords, EltTy.bits .f32 = 32 ∨ (Rect.block (s := S4096x2048) S256x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S4096x2048.size a
  hwx0_5 : ∀ i : grid0.Coords, EltTy.bits .f32 = 32 ∨ (Rect.block (s := S4096x2048) S256x2048.size (cc0_transform_5 i) (hinb0_5 i)).WholeWords (EltTy.packing .f32)

variable [Facts₀]

def dot_S256x1024_S1024x6144_S256x6144_1_0_0_1_n_n : DotDims S256x1024 S1024x6144 S256x6144 where
  lhsContracting := [1]
  rhsContracting := [0]
  lhsNonContracting := [0]
  rhsNonContracting := [1]
  lhsBatch := []
  rhsBatch := []
  wf := dot_S256x1024_S1024x6144_S256x6144_1_0_0_1_n_n_wf

abbrev win0_0 : Pipeline.Window sig grid0 :=
  Pipeline.Window.ofSpec (Memref.whole main_v1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x6144.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S6144.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S256x2048.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S256x2048.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x6144 : Shape := ⟨2, ![4096, 6144]⟩
abbrev S6144 : Shape := ⟨1, ![6144]⟩
abbrev S4096x2048 : Shape := ⟨2, ![4096, 2048]⟩
abbrev S4096x4096 : Shape := ⟨2, ![4096, 4096]⟩
abbrev S1x6144 : Shape := ⟨2, ![1, 6144]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S6144, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x4096, .f32⟩
  | .hbm, ⟨6, _⟩ => ⟨S4096x6144, .f32⟩
  | .hbm, ⟨7, _⟩ => ⟨S1x6144, .f32⟩
  | .hbm, ⟨8, _⟩ => ⟨S4096x6144, .f32⟩
  | .hbm, ⟨9, _⟩ => ⟨S4096x6144, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .i1⟩
  | .hbm, ⟨32, _⟩ => ⟨S_, .f32⟩
  | .hbm, ⟨33, _⟩ => ⟨S4096x2048, .f32⟩
  | .hbm, ⟨34, _⟩ => ⟨S4096x2048, .i1⟩
  | .hbm, ⟨35, _⟩ => ⟨S_, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_cst_0 : Ref sig .tc := ⟨.hbm, 32, rfl⟩
abbrev main_call0_v2 : Ref sig .tc := ⟨.hbm, 33, rfl⟩
abbrev main_call0_v3 : Ref sig .tc := ⟨.hbm, 34, rfl⟩
abbrev main_call0_cst_1 : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_v4 : Ref sig .tc := ⟨.hbm, 38, rfl⟩
abbrev main_call0_v5 : Ref sig .tc := ⟨.hbm, 39, rfl⟩
abbrev main_call0_cst_2 : Ref sig .tc := ⟨.hbm, 40, rfl⟩
abbrev main_call0_v6 : Ref sig .tc := ⟨.hbm, 41, rfl⟩
abbrev main_call0_v7 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩

abbrev nD : Nat := 1
abbrev τ : Topo := Topo.v7x

variable {F : FTy → Type} [FloatOps F]

class Facts₀ : Prop where
  concatenates_S4096x2048_S4096x2048_S4096x4096_d1 : Shape.Concatenates [S4096x2048, S4096x2048] S4096x4096 1
  bcast_S6144_S1x6144_1 : S6144.BroadcastsInDim S1x6144 (![1] : Fin 1 → Fin S1x6144.rank)
  bcast_S1x6144_S4096x6144_0_1 : S1x6144.BroadcastsInDim S4096x6144 (![0, 1] : Fin 2 → Fin S4096x6144.rank)
  slices_S4096x6144_S4096x2048_0_0 : S4096x6144.Slices ![0, 0] S4096x2048
  bcast_S_S4096x2048 : S_.BroadcastsInDim S4096x2048 (![] : Fin 0 → Fin S4096x2048.rank)
  slices_S4096x6144_S4096x2048_0_2048 : S4096x6144.Slices ![0, 2048] S4096x2048
  slices_S4096x6144_S4096x2048_0_4096 : S4096x6144.Slices ![0, 4096] S4096x2048
  dot_S4096x4096_S4096x6144_S4096x6144_1_0_0_1_n_n_wf : DotDims.WF S4096x4096 S4096x6144 S4096x6144 [1] [0] [0] [1] [] []

variable [Facts₀]

def dot_S4096x4096_S4096x6144_S4096x6144_1_0_0_1_n_n : DotDims S4096x4096 S4096x6144 S4096x6144 where
  lhsContracting := [1]
  rhsContracting := [0]
  lhsNonContracting := [0]
  rhsNonContracting := [1]
  lhsBatch := []
  rhsBatch := []
  wf := dot_S4096x4096_S4096x6144_S4096x6144_1_0_0_1_n_n_wf

class Facts : Prop extends Facts₀ where

variable [Facts]
-- ==== Proof.KPieces.lean ====
/-
  What one run of the kernel body leaves behind, read as values (at any float instance).

  The body keeps a 256 × 6144 accumulator between the grid points of one row block. At the first contraction block it
  stores zeros and then adds the block's matrix product; at every later block it adds that block's product to what the
  accumulator held; at the last block it also reads the finished accumulator back in three column bands of width 2048,
  adds the matching bands of the bias, applies the gates and stores the new cell state and the new hidden state.
  Every store covers its buffer whole, so each buffer ends at the last store's value, and a load that follows a store
  reads that stored value through the load's rectangle.
-/
import proofs.«155219_j84705345012109_1_alg».proof.Proof.Gen.KernelIdeal.Value
import Idealize.ShloMosaic.Lib.Pipeline.Value
import Idealize.ShloMosaic.Lib.Tactic

noncomputable section

namespace Cert.KernelIdeal.KValue

open Cert.KernelIdeal Cert.KernelIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl

/-- The accumulation step: what was there plus the block's matrix product (taken into a zero accumulator). -/
def accStep (acc : Vec F S256x6144 .f32) (x : Vec F S256x1024 .bf16) (w : Vec F S1024x6144 .bf16) : Vec F S256x6144 .f32 :=
  addf acc (matmul dot_S256x1024_S1024x6144_S256x6144_1_0_0_1_n_n none x w (constant S256x6144 .f32 0x00000000#32))

/-- The zero block the first contraction block starts from. -/
def zeroAcc : Vec F S256x6144 .f32 := broadcast S256x6144 (Scalar.ofBits .f32 0x00000000#32)

theorem pay2_eq (acc : Vec F S256x6144 .f32) (x : Vec F S256x1024 .bf16) (w : Vec F S1024x6144 .bf16) :
    k0_pay2 acc x w = accStep acc x w := by
  unfold k0_pay2 accStep
  simp only [shapeCast_self]

theorem pay1_eq : k0_pay1 (F := F) = zeroAcc := by
  unfold k0_pay1 zeroAcc
  simp only [shapeCast_self]

/-- At a later, not last, contraction block the accumulator ends at the step over what it held. -/
theorem scratch_mid (c : Dev nD) (i : grid0.Coords) (arg2 : Memref sig .tc .vmem S256x1024 .bf16) (harg2 : arg2.IsWhole) (arg3 : Memref sig .tc .vmem S1024x6144 .bf16) (harg3 : arg3.IsWhole) (arg4 : Memref sig .tc .vmem S6144 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x6144 .f32) (harg8 : arg8.IsWhole) (hc0 : ¬cond0_0 i) (hc1 : ¬cond0_1 i)
    (x0 : Vec F S256x1024 .bf16) (x1 : Vec F S1024x6144 .bf16) (x2 : Vec F S6144 .f32) (x3 : Vec F S256x2048 .f32) (xs0 : Vec F S256x6144 .f32) :
    sout0_B_0 c i arg2 harg2 arg3 harg3 arg4 harg4 arg5 harg5 arg6 harg6 arg7 harg7 arg8 harg8 hc0 hc1 x0 x1 x2 x3 xs0 = accStep xs0 x0 x1 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0)]
  unfold kernelRun0_B
  dsimp only
  rw [View.canon_unit_zero hz2, pay2_eq]
  simp only [View.readAt_eq_ld, harg8.read_unread, harg2.read_unread, harg3.read_unread,
    View.ld_unit_zero (S := S256x6144) hz2, View.ld_unit_zero (S := S256x1024) hz2, View.ld_unit_zero (S := S1024x6144) hz2]

/-- At the last contraction block likewise. -/
theorem scratch_last (c : Dev nD) (i : grid0.Coords) (arg2 : Memref sig .tc .vmem S256x1024 .bf16) (harg2 : arg2.IsWhole) (arg3 : Memref sig .tc .vmem S1024x6144 .bf16) (harg3 : arg3.IsWhole) (arg4 : Memref sig .tc .vmem S6144 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x6144 .f32) (harg8 : arg8.IsWhole) (hc0 : ¬cond0_0 i) (hc1 : cond0_1 i)
    (x0 : Vec F S256x1024 .bf16) (x1 : Vec F S1024x6144 .bf16) (x2 : Vec F S6144 .f32) (x3 : Vec F S256x2048 .f32) (xs0 : Vec F S256x6144 .f32) :
    sout0_C_0 c i arg2 harg2 arg3 harg3 arg4 harg4 arg5 harg5 arg6 harg6 arg7 harg7 arg8 harg8 hc0 hc1 x0 x1 x2 x3 xs0 = accStep xs0 x0 x1 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero hz2, pay2_eq]
  simp only [View.readAt_eq_ld, harg8.read_unread, harg2.read_unread, harg3.read_unread,
    View.ld_unit_zero (S := S256x6144) hz2, View.ld_unit_zero (S := S256x1024) hz2, View.ld_unit_zero (S := S1024x6144) hz2]

/-- At the first contraction block the accumulator ends at the step over the zero block. -/
theorem scratch_first (c : Dev nD) (i : grid0.Coords) (arg2 : Memref sig .tc .vmem S256x1024 .bf16) (harg2 : arg2.IsWhole) (arg3 : Memref sig .tc .vmem S1024x6144 .bf16) (harg3 : arg3.IsWhole) (arg4 : Memref sig .tc .vmem S6144 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x6144 .f32) (harg8 : arg8.IsWhole) (hc0 : cond0_0 i) (hc1 : ¬cond0_1 i)
    (x0 : Vec F S256x1024 .bf16) (x1 : Vec F S1024x6144 .bf16) (x2 : Vec F S6144 .f32) (x3 : Vec F S256x2048 .f32) :
    sout0_A_0 c i arg2 harg2 arg3 harg3 arg4 harg4 arg5 harg5 arg6 harg6 arg7 harg7 arg8 harg8 hc0 hc1 x0 x1 x2 x3 = accStep zeroAcc x0 x1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S256x6144) hz2, View.readCov_unit_zero (S := S256x6144) _ hz2, pay2_eq, pay1_eq]
  simp only [View.readAt_eq_ld, harg2.read_unread, harg3.read_unread,
    View.ld_unit_zero (S := S256x1024) hz2, View.ld_unit_zero (S := S1024x6144) hz2]

/-- The three bias bands and the three accumulator bands the last block reads. -/
def biasIn (b : Vec F S6144 .f32) : Vec F S2048 .f32 := View.ld b (Rect.unit (s := S6144) ![0] S2048.size inb_S6144_S2048_0)
def biasOut (b : Vec F S6144 .f32) : Vec F S2048 .f32 := View.ld b (Rect.unit (s := S6144) ![2048] S2048.size inb_S6144_S2048_2048)
def biasCand (b : Vec F S6144 .f32) : Vec F S2048 .f32 := View.ld b (Rect.unit (s := S6144) ![4096] S2048.size inb_S6144_S2048_4096)
def accIn (a : Vec F S256x6144 .f32) : Vec F S256x2048 .f32 := View.ld a (Rect.unit (s := S256x6144) ![0, 0] S256x2048.size inb_S256x6144_S256x2048_0_0)
def accOut (a : Vec F S256x6144 .f32) : Vec F S256x2048 .f32 := View.ld a (Rect.unit (s := S256x6144) ![0, 2048] S256x2048.size inb_S256x6144_S256x2048_0_2048)
def accCand (a : Vec F S256x6144 .f32) : Vec F S256x2048 .f32 := View.ld a (Rect.unit (s := S256x6144) ![0, 4096] S256x2048.size inb_S256x6144_S256x2048_0_4096)

theorem cover_whole (w : Vec F S256x6144 .f32) (y : S256x6144.Idx) :
    ∃ p ∈ [(⟨Rect.unit (s := S256x6144) ![0, 0] S256x6144.size inb_S256x6144_S256x6144_0_0, w⟩ : View.Piece (Elt F) S256x6144 .f32)], y ∈ p.1.set :=
  ⟨_, List.mem_singleton_self _, View.mem_set_unit_zero hz2 inb_S256x6144_S256x6144_0_0 y⟩

/-- The new cell state the last block stores: the gate arithmetic over the finished accumulator's bands. -/
theorem cell_last (c : Dev nD) (i : grid0.Coords) (arg2 : Memref sig .tc .vmem S256x1024 .bf16) (harg2 : arg2.IsWhole) (arg3 : Memref sig .tc .vmem S1024x6144 .bf16) (harg3 : arg3.IsWhole) (arg4 : Memref sig .tc .vmem S6144 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x6144 .f32) (harg8 : arg8.IsWhole) (hc0 : ¬cond0_0 i) (hc1 : cond0_1 i)
    (x0 : Vec F S256x1024 .bf16) (x1 : Vec F S1024x6144 .bf16) (x2 : Vec F S6144 .f32) (x3 : Vec F S256x2048 .f32) (xs0 : Vec F S256x6144 .f32) :
    out0_C_5 c i arg2 harg2 arg3 harg3 arg4 harg4 arg5 harg5 arg6 harg6 arg7 harg7 arg8 harg8 hc0 hc1 x0 x1 x2 x3 xs0
      = k0_pay3 (biasIn x2) (biasCand x2) (accIn (accStep xs0 x0 x1)) (accCand (accStep xs0 x0 x1)) x3 := by
  unfold out0_C_5 biasIn biasCand accIn accCand
  rw [View.read_writes_eq_canon _ _ _ (cover0_C_5 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readCov_eq_canon_ld _ _ _ (cover_whole _), View.canon_unit_zero (S := S256x6144) hz2, pay2_eq]
  simp only [View.readAt_eq_ld, harg8.read_unread, harg2.read_unread, harg3.read_unread, harg4.read_unread, harg5.read_unread,
    View.ld_unit_zero (S := S256x6144) hz2, View.ld_unit_zero (S := S256x1024) hz2, View.ld_unit_zero (S := S1024x6144) hz2,
    View.ld_unit_zero (S := S256x2048) hz2]

/-- The new hidden state the last block stores. -/
theorem hidden_last (c : Dev nD) (i : grid0.Coords) (arg2 : Memref sig .tc .vmem S256x1024 .bf16) (harg2 : arg2.IsWhole) (arg3 : Memref sig .tc .vmem S1024x6144 .bf16) (harg3 : arg3.IsWhole) (arg4 : Memref sig .tc .vmem S6144 .f32) (harg4 : arg4.IsWhole) (arg5 : Memref sig .tc .vmem S256x2048 .f32) (harg5 : arg5.IsWhole) (arg6 : Memref sig .tc .vmem S256x2048 .f32) (harg6 : arg6.IsWhole) (arg7 : Memref sig .tc .vmem S256x2048 .f32) (harg7 : arg7.IsWhole) (arg8 : Memref sig .tc .vmem S256x6144 .f32) (harg8 : arg8.IsWhole) (hc0 : ¬cond0_0 i) (hc1 : cond0_1 i)
    (x0 : Vec F S256x1024 .bf16) (x1 : Vec F S1024x6144 .bf16) (x2 : Vec F S6144 .f32) (x3 : Vec F S256x2048 .f32) (xs0 : Vec F S256x6144 .f32) :
    out0_C_4 c i arg2 harg2 arg3 harg3 arg4 harg4 arg5 harg5 arg6 harg6 arg7 harg7 arg8 harg8 hc0 hc1 x0 x1 x2 x3 xs0
      = k0_pay4 (biasIn x2) (biasOut x2) (biasCand x2) (accIn (accStep xs0 x0 x1)) (accCand (accStep xs0 x0 x1)) x3 (accOut (accStep xs0 x0 x1)) := by
  unfold out0_C_4 biasIn biasOut biasCand accIn accOut accCand
  rw [View.read_writes_eq_canon _ _ _ (cover0_C_4 c i arg2 harg2 arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readCov_eq_canon_ld _ _ _ (cover_whole _), View.canon_unit_zero (S := S256x6144) hz2, pay2_eq]
  simp only [View.readAt_eq_ld, harg8.read_unread, harg2.read_unread, harg3.read_unread, harg4.read_unread, harg5.read_unread,
    View.ld_unit_zero (S := S256x6144) hz2, View.ld_unit_zero (S := S256x1024) hz2, View.ld_unit_zero (S := S1024x6144) hz2,
    View.ld_unit_zero (S := S256x2048) hz2]

end Cert.KernelIdeal.KValue

end
-- ==== Proof.LibGraphLaws.lean ====
/-
  GENERAL LEMMAS on the extended reals (no program imported): powers of zero and of squares against quotients and square roots,
  with the float words 0, 1, 2, 1/2, 1/4, −2 as reals. They are the laws that join the two programs of this certificate. Both compute one layer of a graph network:
  each atom's features are the square roots of the magnitudes of its inputs, a neighbour's contribution is weighted
  by the inverse squared length of the bond to it (the weights normalised to sum to one), and each bond is updated
  from its two end atoms, whose features are normalised by their column sums. The programs differ in how they spell
  four things, and each spelling agrees on the reals where the certificate's precondition puts the inputs:

    * the fourth root of a square against the square root of a magnitude:   (a²)^(1/4) = √|a|          (every real a);
    * a square root raised to the power −2 against a reciprocal:            (s^(1/2))^(−2) = 1/s       (s > 0);
    * a quotient against a product with a reciprocal:                       x / d = x · (1/d)          (d ≠ 0 real);
    * the magnitude of a value clamped at zero against the value:           |max y 0| = max y 0.

  The second law is where the precondition's positivity of every bond's squared length is used: at s = 0 the power
  is 0 and the quotient is +∞.
-/
import Idealize.ShloMosaic.PureOps.Ideal

noncomputable section

namespace Cert.GraphLaws

open Idealize.ShloMosaic

/-! ## The float words the two programs spell, as reals -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_quarter : Ideal.ofBits .f32 0x3E800000#32 = ((1 / 4 : ℝ) : EReal) := by
  simp [Ideal.ofBits, Ideal.ieee, -EReal.coe_mul]; norm_num

theorem ofBits_neg_two : Ideal.ofBits .f32 0xC0000000#32 = ((-2 : ℝ) : EReal) := by
  simp [Ideal.ofBits, Ideal.ieee, -EReal.coe_mul]; norm_num

/-! ## The four laws -/

/-- The fourth root of a real's square is the square root of its magnitude. -/
theorem pow_two_quarter (a : ℝ) :
    Ideal.pow (Ideal.pow (a : EReal) ((2 : ℝ) : EReal)) ((1 / 4 : ℝ) : EReal)
      = Ideal.sqrt (max (a : EReal) (-(a : EReal))) := by
  have h : ((a ^ (2 : ℝ)) ^ ((1 : ℝ) / 4)) = Real.sqrt |a| := by
    rw [Real.rpow_two, ← sq_abs, ← Real.rpow_two, ← Real.rpow_mul (abs_nonneg a), Real.sqrt_eq_rpow]
    norm_num
  have hm : max (a : EReal) (-(a : EReal)) = ((|a| : ℝ) : EReal) := by
    rw [← EReal.coe_neg]
    rcases le_total 0 a with h | h
    · rw [abs_of_nonneg h, max_eq_left]; exact EReal.coe_le_coe_iff.mpr (by linarith)
    · rw [abs_of_nonpos h, max_eq_right]; exact EReal.coe_le_coe_iff.mpr (by linarith)
  rw [hm, Ideal.pow_coe_coe, Ideal.pow_coe_coe, Ideal.sqrt_coe, if_neg (not_lt.mpr (abs_nonneg a))]
  exact congrArg _ h

/-- A positive real's square root, raised to the power −2, is its reciprocal. -/
theorem pow_half_neg_two {s : ℝ} (hs : 0 < s) :
    Ideal.pow (Ideal.pow (s : EReal) ((1 / 2 : ℝ) : EReal)) ((-2 : ℝ) : EReal) = Ideal.div 1 (s : EReal) := by
  have h : ((s ^ ((1 : ℝ) / 2)) ^ (-2 : ℝ)) = 1 / s := by
    rw [← Real.rpow_mul hs.le, show ((1 : ℝ) / 2) * (-2) = -1 by norm_num, Real.rpow_neg_one, one_div]
  rw [Ideal.pow_coe_coe, Ideal.pow_coe_coe, Ideal.div_coe hs.ne', one_mul]
  exact congrArg _ h

/-- Dividing by a non-zero real is multiplying by its reciprocal. -/
theorem div_eq_mul_recip {d : ℝ} (hd : d ≠ 0) (x : EReal) :
    Ideal.div x (d : EReal) = x * Ideal.div 1 (d : EReal) := by
  rw [Ideal.div_coe hd, Ideal.div_coe hd, one_mul]

/-- A value clamped at zero is its own magnitude. -/
theorem abs_max_zero (y : EReal) : max (max y 0) (-(max y 0)) = max y 0 := by
  have h0 : (0 : EReal) ≤ max y 0 := le_max_right _ _
  have h1 : -(max y 0) ≤ 0 := by
    have h := EReal.neg_le_neg_iff.mpr h0
    rwa [neg_zero] at h
  exact max_eq_left (h1.trans h0)

end Cert.GraphLaws

end
-- ==== Proof.Spec.lean ====
/-
  The specification of one LSTM-like cell update, over the extended reals, and the one law that joins the two programs.

  With X = [old_h | input] (4096 × 4096), W the weights (4096 × 6144), b the bias (6144) and C the old cell state
  (4096 × 2048), the gate logits are  z = X · W + b,  split into three column bands of width 2048: input gate (columns
  0 … 2047), output gate (2048 … 4095) and candidate cell (4096 … 6143). Then

      new_c = C + elu(z_cand) · σ(z_in),        new_h = tanh(new_c) · σ(z_out),

  with σ(z) = 1 / (1 + e^(−z)) and elu(z) = z for z > 0, e^z − 1 otherwise.

  One program sums the matrix product over the whole contraction axis at once; the other in four consecutive blocks of
  1024, accumulated from zero. Addition of extended reals is commutative and associative, so the two agree
  (`dotFull_eq_blocks`), whatever the entries are.
-/
import Idealize.ShloMosaic.PureOps.Ideal
import Idealize.ShloMosaic.PureOps.Ideal.Laws
import Idealize.ShloMosaic.Lib.ValueIdx
import proofs.«155219_j84705345012109_1_alg».proof.Proof.LibGraphLaws

noncomputable section

namespace Cert.Spec

open Idealize.ShloMosaic Idealize.ShloMosaic.ValueIdx

/-- The shapes of the arrays. -/
abbrev SXX : Shape := ⟨2, ![4096, 4096]⟩
abbrev SW : Shape := ⟨2, ![4096, 6144]⟩
abbrev SB : Shape := ⟨1, ![6144]⟩
abbrev SC : Shape := ⟨2, ![4096, 2048]⟩

/-- Position `l` of contraction block `k` on the whole contraction axis. -/
def kpos (k : Fin 4) (l : Fin 1024) : Fin 4096 := ⟨1024 * k.val + l.val, by have := k.isLt; have := l.isLt; omega⟩

/-- The matrix product at (r, j), summed over the whole contraction axis. -/
def dotFull (X : SXX.Idx → EReal) (W : SW.Idx → EReal) (r : Fin 4096) (j : Fin 6144) : EReal :=
  ∑ kk : Fin 4096, X (ix2 r kk) * W (ix2 kk j)

/-- The part of that sum over contraction block `k`. -/
def dotBlk (X : SXX.Idx → EReal) (W : SW.Idx → EReal) (r : Fin 4096) (j : Fin 6144) (k : Fin 4) : EReal :=
  ∑ l : Fin 1024, X (ix2 r (kpos k l)) * W (ix2 (kpos k l) j)

/-- A sum over the contraction axis is the sum over the four blocks of the sums inside each block. -/
theorem sum_blocks (f : Fin 4096 → EReal) : ∑ kk : Fin 4096, f kk = ∑ k : Fin 4, ∑ l : Fin 1024, f (kpos k l) := by
  rw [← Fintype.sum_prod_type' (f := fun k l => f (kpos k l))]
  refine (Fintype.sum_equiv (finProdFinEquiv (m := 4) (n := 1024)) _ _ (fun p => ?_)).symm
  congr 1
  apply Fin.ext
  show 1024 * p.1.val + p.2.val = p.2.val + 1024 * p.1.val
  omega

/-- The whole sum is the four block sums accumulated from zero, in block order. -/
theorem dotFull_eq_blocks (X : SXX.Idx → EReal) (W : SW.Idx → EReal) (r : Fin 4096) (j : Fin 6144) :
    dotFull X W r j = 0 + ∑ s ∈ Finset.range 4, (if h : s < 4 then dotBlk X W r j ⟨s, h⟩ else 0) := by
  unfold dotFull dotBlk
  rw [sum_blocks, zero_add, Fin.sum_univ_four]
  simp [Finset.sum_range_succ, add_assoc]

/-- The gate logit at row `r`, column `j`. -/
def logit (X : SXX.Idx → EReal) (W : SW.Idx → EReal) (b : SB.Idx → EReal) (r : Fin 4096) (j : Fin 6144) : EReal :=
  dotFull X W r j + b (ix1 j)

/-- Column `q` of the input-gate, output-gate and candidate-cell bands. -/
def colIn (q : Fin 2048) : Fin 6144 := ⟨q.val, by have := q.isLt; omega⟩
def colOut (q : Fin 2048) : Fin 6144 := ⟨2048 + q.val, by have := q.isLt; omega⟩
def colCand (q : Fin 2048) : Fin 6144 := ⟨4096 + q.val, by have := q.isLt; omega⟩

/-- The logistic function, as both programs spell it: 1 / (1 + e^(−z)). -/
def sigm (z : EReal) : EReal := Ideal.div 1 (1 + Ideal.exp (-z))

/-- The exponential linear unit: z where z > 0, e^z − 1 elsewhere. -/
def elu (z : EReal) : EReal := Scalar.select (Ideal.cmp .ogt z 0) z (Ideal.exp z - 1)

/-- The new cell state at (r, q). -/
def newCAt (X : SXX.Idx → EReal) (W : SW.Idx → EReal) (b : SB.Idx → EReal) (C : SC.Idx → EReal) (r : Fin 4096) (q : Fin 2048) : EReal :=
  C (ix2 r q) + elu (logit X W b r (colCand q)) * sigm (logit X W b r (colIn q))

/-- The new hidden state at (r, q). -/
def newHAt (X : SXX.Idx → EReal) (W : SW.Idx → EReal) (b : SB.Idx → EReal) (C : SC.Idx → EReal) (r : Fin 4096) (q : Fin 2048) : EReal :=
  Ideal.tanh (newCAt X W b C r q) * sigm (logit X W b r (colOut q))

/-- The two results as whole arrays. -/
def newC (X : SXX.Idx → EReal) (W : SW.Idx → EReal) (b : SB.Idx → EReal) (C : SC.Idx → EReal) : SC.Idx → EReal :=
  fun i => newCAt X W b C (i 0) (i 1)
def newH (X : SXX.Idx → EReal) (W : SW.Idx → EReal) (b : SB.Idx → EReal) (C : SC.Idx → EReal) : SC.Idx → EReal :=
  fun i => newHAt X W b C (i 0) (i 1)

/-- The float words 0.0 and 1.0 are the reals 0 and 1. -/
theorem word_zero : Ideal.ofBits .f32 0x00000000#32 = 0 := Cert.GraphLaws.ofBits_zero
theorem word_one : Ideal.ofBits .f32 0x3F800000#32 = 1 := by rw [Cert.GraphLaws.ofBits_one, EReal.coe_one]

end Cert.Spec

end
-- ==== Proof.KAcc.lean ====
/-
  The accumulator after the last contraction block of a row block, index by index (at the ideal instance).

  Row block q of the grid (q = 0 … 15) is visited at the four consecutive grid points 4q, 4q+1, 4q+2, 4q+3, one per
  contraction block of 1024. At point 4q + s the body sees rows 256q … 256q+255 and columns 1024s … 1024s+1023 of
  X = [old_h | input] and rows 1024s … 1024s+1023 of the weights, and adds their matrix product to the accumulator
  (which the first of the four points starts from zero). So after point 4q+3 the accumulator at (p, j) is
  0 + Σ_s Σ_l X(256q+p, 1024s+l) · W(1024s+l, j): the whole product X·W at (256q+p, j), because a sum of extended reals
  may be regrouped freely.
-/
import proofs.«155219_j84705345012109_1_alg».proof.Proof.KPieces
import proofs.«155219_j84705345012109_1_alg».proof.Proof.Spec
import Idealize.ShloMosaic.Lib.ValueIdx
import Idealize.ShloMosaic.Lib.StableHlo.Run
import Idealize.ShloMosaic.PureOps.Ideal.Laws

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx
open Cert.Spec (kpos dotFull dotBlk)

variable (m : (ℓ : Loc nD τ sig) → Buf (Elt Ideal) ℓ)

/-! ## The block product at an index -/

theorem lhs0 (i : S256x6144.Idx) (q : dot_S256x1024_S1024x6144_S256x6144_1_0_0_1_n_n.contr.Idx) : (dot_S256x1024_S1024x6144_S256x6144_1_0_0_1_n_n.lhsIdx i q 0).val = (i 0).val := by
  unfold DotDims.lhsIdx
  rw [dif_neg (show ¬(0 : Fin S256x1024.rank) ∈ dot_S256x1024_S1024x6144_S256x6144_1_0_0_1_n_n.lhsBatch by decide), dif_pos (show (0 : Fin S256x1024.rank) ∈ dot_S256x1024_S1024x6144_S256x6144_1_0_0_1_n_n.lhsNonContracting by decide)]
  rfl
theorem lhs1 (i : S256x6144.Idx) (q : dot_S256x1024_S1024x6144_S256x6144_1_0_0_1_n_n.contr.Idx) : (dot_S256x1024_S1024x6144_S256x6144_1_0_0_1_n_n.lhsIdx i q 1).val = (q ⟨0, by decide⟩).val :=
  dot_S256x1024_S1024x6144_S256x6144_1_0_0_1_n_n.lhsIdx_val_of_single rfl i q
theorem rhs0 (i : S256x6144.Idx) (q : dot_S256x1024_S1024x6144_S256x6144_1_0_0_1_n_n.contr.Idx) : (dot_S256x1024_S1024x6144_S256x6144_1_0_0_1_n_n.rhsIdx i q 0).val = (q ⟨0, by decide⟩).val :=
  dot_S256x1024_S1024x6144_S256x6144_1_0_0_1_n_n.rhsIdx_val_of_single rfl i q
theorem rhs1 (i : S256x6144.Idx) (q : dot_S256x1024_S1024x6144_S256x6144_1_0_0_1_n_n.contr.Idx) : (dot_S256x1024_S1024x6144_S256x6144_1_0_0_1_n_n.rhsIdx i q 1).val = (i 1).val := by
  unfold DotDims.rhsIdx
  rw [dif_neg (show ¬(1 : Fin S1024x6144.rank) ∈ dot_S256x1024_S1024x6144_S256x6144_1_0_0_1_n_n.rhsBatch by decide), dif_pos (show (1 : Fin S1024x6144.rank) ∈ dot_S256x1024_S1024x6144_S256x6144_1_0_0_1_n_n.rhsNonContracting by decide)]
  rfl

/-- One block's matrix product at (p, j): the sum over the block's 1024 contraction positions. -/
theorem matmul_at (x : FVec Ideal S256x1024 .bf16) (w : FVec Ideal S1024x6144 .bf16) (p : Fin 256) (j : Fin 6144) :
    matmul (F := Ideal) (φ₁ := .bf16) (φ₂ := .bf16) dot_S256x1024_S1024x6144_S256x6144_1_0_0_1_n_n none x w (constant S256x6144 .f32 0x00000000#32) (ix2 p j)
      = ∑ l : Fin 1024, x (ix2 p l) * w (ix2 l j) := by
  simp only [matmul]
  rw [Ideal.matmul_constant_zero_apply, ← Equiv.sum_comp (contrEquiv1 dot_S256x1024_S1024x6144_S256x6144_1_0_0_1_n_n 1024 rfl rfl).symm]
  refine Finset.sum_congr rfl fun l _ => ?_
  have hl := contrEquiv1_symm_val dot_S256x1024_S1024x6144_S256x6144_1_0_0_1_n_n 1024 rfl rfl l
  have el : dot_S256x1024_S1024x6144_S256x6144_1_0_0_1_n_n.lhsIdx (ix2 p j) ((contrEquiv1 dot_S256x1024_S1024x6144_S256x6144_1_0_0_1_n_n 1024 rfl rfl).symm l) = ix2 p l := funext fun a => Fin.ext (by
    match a with
    | ⟨0, _⟩ => exact lhs0 _ _
    | ⟨1, _⟩ => exact (lhs1 _ _).trans hl)
  have er : dot_S256x1024_S1024x6144_S256x6144_1_0_0_1_n_n.rhsIdx (ix2 p j) ((contrEquiv1 dot_S256x1024_S1024x6144_S256x6144_1_0_0_1_n_n 1024 rfl rfl).symm l) = ix2 l j := funext fun a => Fin.ext (by
    match a with
    | ⟨0, _⟩ => exact (rhs0 _ _).trans hl
    | ⟨1, _⟩ => exact rhs1 _ _)
  rw [el, er]

/-! ## The blocks the body sees at a grid point -/

/-- The printed index maps over the 64 grid points: point t is row block t / 4 and contraction block t % 4. -/
theorem idx_facts : ∀ t : Fin cfg0.N, win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 1) = 0
    ∧ win0_3.index t (0 : Fin 2) = t.val / 4 ∧ win0_3.index t (1 : Fin 2) = 0
    ∧ win0_4.index t (0 : Fin 2) = t.val / 4 ∧ win0_4.index t (1 : Fin 2) = 0
    ∧ win0_5.index t (0 : Fin 2) = t.val / 4 ∧ win0_5.index t (1 : Fin 2) = 0 :=
  (by decide +kernel : ∀ t : Fin grid0.N, _)

/-- Row p of row block q, on the whole row axis. -/
def brow (q : Fin 16) (p : Fin 256) : Fin 4096 := ⟨256 * q.val + p.val, by have := q.isLt; have := p.isLt; omega⟩

/-- X = [old_h | input] and the weights, as the region finds them: the conversions to a narrower format before the
    region are the identity on extended reals. -/
abbrev xcat (c : Dev nD) : S4096x4096.Idx → EReal :=
  concatenate S4096x4096 1 [⟨S4096x2048, m ((c : Thread nD τ).loc main_arg3)⟩, ⟨S4096x2048, m ((c : Thread nD τ).loc main_arg2)⟩] Facts₀.concatenates_S4096x2048_S4096x2048_S4096x4096_d1

theorem V_x (c : Dev nD) : (V m c main_v1 : S4096x4096.Idx → EReal) = xcat m c := by
  dsimp only [Gen.V, Gen.hostOps0]; after_results; rfl

theorem V_w (c : Dev nD) : (V m c main_v2 : S4096x6144.Idx → EReal) = m ((c : Thread nD τ).loc main_arg0) := by
  dsimp only [Gen.V, Gen.hostOps0]; after_results; rfl

/-- The X block at point t holds rows 256 (t/4) … and columns 1024 (t%4) … of X. -/
theorem xblk_apply (c : Dev nD) (t : Fin cfg0.N) (q : Fin 16) (s : Fin 4) (hq : t.val / 4 = q.val) (hs : t.val % 4 = s.val)
    (p : Fin 256) (l : Fin 1024) :
    (iblk m c 0 t : Vec Ideal S256x1024 .bf16) (ix2 p l) = xcat m c (ix2 (brow q p) (kpos s l)) := by
  obtain ⟨e0, e1, -⟩ := idx_facts t
  rw [← V_x m c]
  unfold iblk
  rw [View.read_apply]
  show V m c main_v1 (((cfg0.win 0).blk t).view.emb (ix2 p l)) = _
  congr 1
  funext a; apply Fin.ext
  match a with
  | ⟨0, _⟩ => show win0_0.index t (0 : Fin 2) * 256 + 1 * p.val = 256 * q.val + p.val; rw [e0, hq]; omega
  | ⟨1, _⟩ => show win0_0.index t (1 : Fin 2) * 1024 + 1 * l.val = 1024 * s.val + l.val; rw [e1, hs]; omega

/-- The weight block at point t holds rows 1024 (t%4) … of the weights, all columns. -/
theorem wblk_apply (c : Dev nD) (t : Fin cfg0.N) (s : Fin 4) (hs : t.val % 4 = s.val) (l : Fin 1024) (j : Fin 6144) :
    (iblk m c 1 t : Vec Ideal S1024x6144 .bf16) (ix2 l j) = m ((c : Thread nD τ).loc main_arg0) (ix2 (kpos s l) j) := by
  obtain ⟨-, -, e0, e1, -⟩ := idx_facts t
  rw [← V_w m c]
  unfold iblk
  rw [View.read_apply]
  show V m c main_v2 (((cfg0.win 1).blk t).view.emb (ix2 l j)) = _
  congr 1
  funext a; apply Fin.ext
  match a with
  | ⟨0, _⟩ => show win0_1.index t (0 : Fin 2) * 1024 + 1 * l.val = 1024 * s.val + l.val; rw [e0, hs]; omega
  | ⟨1, _⟩ => show win0_1.index t (1 : Fin 2) * 6144 + 1 * j.val = j.val; rw [e1]; omega

/-! ## What each point leaves in the accumulator -/

theorem scAt_first (c : Dev nD) (n : ℕ) (hb : n < cfg0.N) (acc : Vec Ideal S256x6144 .f32) (h0 : n % 4 = 0) :
    Value.scAt0_0 m c n hb acc = accStep zeroAcc (iblk m c 0 (⟨n, hb⟩ : Fin cfg0.N)) (iblk m c 1 (⟨n, hb⟩ : Fin cfg0.N)) := by
  have h1 : ¬n % 4 = 3 := by omega
  unfold Value.scAt0_0
  rw [dif_pos h0, dif_neg h1]
  exact scratch_first (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))

theorem scAt_later (c : Dev nD) (n : ℕ) (hb : n < cfg0.N) (acc : Vec Ideal S256x6144 .f32) (h0 : ¬n % 4 = 0) :
    Value.scAt0_0 m c n hb acc = accStep acc (iblk m c 0 (⟨n, hb⟩ : Fin cfg0.N)) (iblk m c 1 (⟨n, hb⟩ : Fin cfg0.N)) := by
  unfold Value.scAt0_0
  rw [dif_neg h0]
  by_cases h1 : n % 4 = 3
  · rw [dif_pos h1]
    exact scratch_last (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc
  · rw [dif_neg h1]
    exact scratch_mid (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc

/-- The product the body adds at grid point n, as a function of the accumulator index (zero past the grid). -/
def blockSum (c : Dev nD) (n : ℕ) (y : S256x6144.Idx) : EReal :=
  if h : n < cfg0.N then
    matmul (F := Ideal) (φ₁ := .bf16) (φ₂ := .bf16) dot_S256x1024_S1024x6144_S256x6144_1_0_0_1_n_n none (iblk m c 0 (⟨n, h⟩ : Fin cfg0.N)) (iblk m c 1 (⟨n, h⟩ : Fin cfg0.N)) (constant S256x6144 .f32 0x00000000#32) y
  else 0

theorem accStep_apply (c : Dev nD) (n : ℕ) (hb : n < cfg0.N) (acc : Vec Ideal S256x6144 .f32) (y : S256x6144.Idx) :
    accStep acc (iblk m c 0 (⟨n, hb⟩ : Fin cfg0.N)) (iblk m c 1 (⟨n, hb⟩ : Fin cfg0.N)) y = acc y + blockSum m c n y := by
  unfold blockSum
  rw [dif_pos hb]
  rfl

/-- At point n = 4q + s the added product at (p, j) is contraction block s of X·W at (256q+p, j). -/
theorem blockSum_eq (c : Dev nD) (n : ℕ) (hb : n < cfg0.N) (q : Fin 16) (s : Fin 4) (hq : n / 4 = q.val) (hs : n % 4 = s.val)
    (p : Fin 256) (j : Fin 6144) :
    blockSum m c n (ix2 p j) = dotBlk (xcat m c) (m ((c : Thread nD τ).loc main_arg0)) (brow q p) j s := by
  unfold blockSum dotBlk
  rw [dif_pos hb, matmul_at]
  refine Finset.sum_congr rfl fun l _ => ?_
  rw [xblk_apply m c (⟨n, hb⟩ : Fin cfg0.N) q s hq hs p l, wblk_apply m c (⟨n, hb⟩ : Fin cfg0.N) s hs l j]

/-- THE FINISHED ACCUMULATOR: after the last point t = 4q+3 of row block q it holds X·W at (256q+p, j). -/
theorem acc_final (c : Dev nD) (t : Fin cfg0.N) (ht : t.val % 4 = 3) (q : Fin 16) (hq : t.val / 4 = q.val) (p : Fin 256) (j : Fin 6144) :
    (outsAt0 m c t.val t.isLt).2.2 (ix2 p j) = dotFull (xcat m c) (m ((c : Thread nD τ).loc main_arg0)) (brow q p) j := by
  have hN : cfg0.N = 64 := N_0
  have hlt := t.isLt
  rw [Value.soutsAt0_0_eq m c t]
  have key := Pipeline.accAt_add_apply (N := cfg0.N) (ι := S256x6144.Idx) (β := EReal)
    (fun n h => Value.scAt0_0 m c n h (VS0_0.read (Elt Ideal) VS0_0.junk)) (Value.scAt0_0 m c) (zeroAcc (F := Ideal)) (blockSum m c)
    (4 * (t.val / 4)) 3
    (fun h i => by
      show Value.scAt0_0 m c (4 * (t.val / 4)) h _ i = _
      rw [scAt_first m c _ h _ (by omega), accStep_apply])
    (fun n h acc i hlo hhi => by
      rw [scAt_later m c n h acc (by omega), accStep_apply])
    (t.val % 4) (by omega) (by omega) (ix2 p j)
  rw [key, ht, Cert.Spec.dotFull_eq_blocks]
  congr 1
  · exact Cert.Spec.word_zero
  · refine Finset.sum_congr rfl fun s hs => ?_
    have hs4 : s < 4 := Finset.mem_range.mp hs
    rw [dif_pos hs4]
    exact blockSum_eq m c (4 * (t.val / 4) + s) (by omega) q ⟨s, hs4⟩ (by omega) (by simp; omega) p j

end Cert.KernelIdeal.KValue

end
-- ==== Proof.KOut.lean ====
/-
  What the last contraction block of a row block writes back, index by index (at the ideal instance).

  At the last point t = 4q+3 of row block q the body adds the bias bands to the three column bands of the finished
  accumulator — which is X·W on rows 256q … 256q+255 — and applies the gates. So the block it writes back to the new
  cell state is the specification's new_c on those rows, and the block it writes back to the new hidden state is the
  specification's new_h there. The only algebra is the spelling of the logistic function's argument as 0 − z, which is
  −z on every extended real, and reading the float words 0.0 and 1.0 as 0 and 1.
-/
import proofs.«155219_j84705345012109_1_alg».proof.Proof.KAcc
import Idealize.ShloMosaic.Lib.ValueLayout

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx
open Cert.Spec (colIn colOut colCand sigm elu newCAt newHAt logit dotFull)

variable (m : (ℓ : Loc nD τ sig) → Buf (Elt Ideal) ℓ)

/-! ## The gate arithmetic at an index -/

/-- The logistic function as the body spells it, with the words 0.0 and 1.0 and the argument 0 − z. -/
theorem sigm_spelled (z : EReal) :
    Ideal.div (Ideal.ofBits .f32 0x3F800000#32) (Ideal.ofBits .f32 0x3F800000#32 + Ideal.exp (Ideal.ofBits .f32 0x00000000#32 - z)) = sigm z := by
  unfold sigm
  rw [Cert.Spec.word_one, Cert.Spec.word_zero, zero_sub]

/-- The exponential linear unit as the body spells it. -/
theorem elu_spelled (z : EReal) :
    Scalar.select (Ideal.cmp .ogt z (Ideal.ofBits .f32 0x00000000#32)) z (Ideal.exp z - Ideal.ofBits .f32 0x3F800000#32) = elu z := by
  unfold elu
  rw [Cert.Spec.word_one, Cert.Spec.word_zero]

/-- The stored cell value at (p, q): the old cell plus elu of the candidate logit times the input gate. -/
theorem pay3_at (bI bC : Vec Ideal S2048 .f32) (aI aC cc : Vec Ideal S256x2048 .f32) (p : Fin 256) (q : Fin 2048) :
    k0_pay3 (F := Ideal) bI bC aI aC cc (ix2 p q)
      = cc (ix2 p q) + elu (aC (ix2 p q) + bC (ix1 q)) * sigm (aI (ix2 p q) + bI (ix1 q)) := by
  unfold k0_pay3
  simp only [addf_apply, mulf_apply, divf_apply, subf_apply, select_apply, cmpf_apply, broadcast_apply, exp,
    Ideal.exp_def, Ideal.cmpf_def, Scalar.ofBits, Ideal.ofBits_def]
  rw [sigm_spelled, elu_spelled]
  simp only [broadcastTo_1b_ab_apply, shapeCast_a_1a_apply]

/-- The stored hidden value at (p, q): tanh of the stored cell value times the output gate. -/
theorem pay4_at (bI bO bC : Vec Ideal S2048 .f32) (aI aC cc aO : Vec Ideal S256x2048 .f32) (p : Fin 256) (q : Fin 2048) :
    k0_pay4 (F := Ideal) bI bO bC aI aC cc aO (ix2 p q)
      = Ideal.tanh (k0_pay3 (F := Ideal) bI bC aI aC cc (ix2 p q)) * sigm (aO (ix2 p q) + bO (ix1 q)) := by
  unfold k0_pay4
  simp only [addf_apply, mulf_apply, divf_apply, subf_apply, broadcast_apply, exp, tanh,
    Ideal.exp_def, Ideal.tanh_def, Scalar.ofBits, Ideal.ofBits_def]
  rw [sigm_spelled]
  simp only [broadcastTo_1b_ab_apply, shapeCast_a_1a_apply]

/-! ## The bands and the blocks, at an index -/

theorem biasIn_at (b : Vec Ideal S6144 .f32) (q : Fin 2048) : biasIn b (ix1 q) = b (ix1 (colIn q)) :=
  congrArg b (funext fun a => Fin.ext (by match a with | ⟨0, _⟩ => show 0 + 1 * q.val = q.val; omega))
theorem biasOut_at (b : Vec Ideal S6144 .f32) (q : Fin 2048) : biasOut b (ix1 q) = b (ix1 (colOut q)) :=
  congrArg b (funext fun a => Fin.ext (by match a with | ⟨0, _⟩ => show 2048 + 1 * q.val = 2048 + q.val; omega))
theorem biasCand_at (b : Vec Ideal S6144 .f32) (q : Fin 2048) : biasCand b (ix1 q) = b (ix1 (colCand q)) :=
  congrArg b (funext fun a => Fin.ext (by match a with | ⟨0, _⟩ => show 4096 + 1 * q.val = 4096 + q.val; omega))
theorem accIn_at (A : Vec Ideal S256x6144 .f32) (p : Fin 256) (q : Fin 2048) : accIn A (ix2 p q) = A (ix2 p (colIn q)) :=
  congrArg A (funext fun a => Fin.ext (by
    match a with
    | ⟨0, _⟩ => show 0 + 1 * p.val = p.val; omega
    | ⟨1, _⟩ => show 0 + 1 * q.val = q.val; omega))
theorem accOut_at (A : Vec Ideal S256x6144 .f32) (p : Fin 256) (q : Fin 2048) : accOut A (ix2 p q) = A (ix2 p (colOut q)) :=
  congrArg A (funext fun a => Fin.ext (by
    match a with
    | ⟨0, _⟩ => show 0 + 1 * p.val = p.val; omega
    | ⟨1, _⟩ => show 2048 + 1 * q.val = 2048 + q.val; omega))
theorem accCand_at (A : Vec Ideal S256x6144 .f32) (p : Fin 256) (q : Fin 2048) : accCand A (ix2 p q) = A (ix2 p (colCand q)) :=
  congrArg A (funext fun a => Fin.ext (by
    match a with
    | ⟨0, _⟩ => show 0 + 1 * p.val = p.val; omega
    | ⟨1, _⟩ => show 4096 + 1 * q.val = 4096 + q.val; omega))

/-- The bias window is the whole bias at every point. -/
theorem bblk_apply (c : Dev nD) (t : Fin cfg0.N) (j : Fin 6144) :
    (iblk m c 2 t : Vec Ideal S6144 .f32) (ix1 j) = m ((c : Thread nD τ).loc main_arg1) (ix1 j) := by
  obtain ⟨-, -, -, -, e0, -⟩ := idx_facts t
  rw [← V_main_arg1 m c]
  unfold iblk
  rw [View.read_apply]
  show V m c main_arg1 (((cfg0.win 2).blk t).view.emb (ix1 j)) = _
  congr 1
  funext a; apply Fin.ext
  match a with
  | ⟨0, _⟩ => show win0_2.index t (0 : Fin 1) * 6144 + 1 * j.val = j.val; rw [e0]; omega

/-- The old-cell window at point t holds rows 256 (t/4) … of the old cell state. -/
theorem cblk_apply (c : Dev nD) (t : Fin cfg0.N) (qq : Fin 16) (hq : t.val / 4 = qq.val) (p : Fin 256) (q : Fin 2048) :
    (iblk m c 3 t : Vec Ideal S256x2048 .f32) (ix2 p q) = m ((c : Thread nD τ).loc main_arg4) (ix2 (brow qq p) q) := by
  obtain ⟨-, -, -, -, -, e0, e1, -⟩ := idx_facts t
  rw [← V_main_arg4 m c]
  unfold iblk
  rw [View.read_apply]
  show V m c main_arg4 (((cfg0.win 3).blk t).view.emb (ix2 p q)) = _
  congr 1
  funext a; apply Fin.ext
  match a with
  | ⟨0, _⟩ => show win0_3.index t (0 : Fin 2) * 256 + 1 * p.val = 256 * qq.val + p.val; rw [e0, hq]; omega
  | ⟨1, _⟩ => show win0_3.index t (1 : Fin 2) * 2048 + 1 * q.val = q.val; rw [e1]; omega

/-! ## The two stored blocks are the specification's rows -/

/-- The arrays the specification is read at: X, the weights, the bias, the old cell state. -/
abbrev specC (c : Dev nD) : S4096x2048.Idx → EReal :=
  Cert.Spec.newC (xcat m c) (m ((c : Thread nD τ).loc main_arg0)) (m ((c : Thread nD τ).loc main_arg1)) (m ((c : Thread nD τ).loc main_arg4))
abbrev specH (c : Dev nD) : S4096x2048.Idx → EReal :=
  Cert.Spec.newH (xcat m c) (m ((c : Thread nD τ).loc main_arg0)) (m ((c : Thread nD τ).loc main_arg1)) (m ((c : Thread nD τ).loc main_arg4))

/-- A logit from the finished accumulator's band and the bias band. -/
theorem logit_at (c : Dev nD) (t : Fin cfg0.N) (ht : t.val % 4 = 3) (qq : Fin 16) (hq : t.val / 4 = qq.val) (p : Fin 256) (j : Fin 6144) :
    (outsAt0 m c t.val t.isLt).2.2 (ix2 p j) + (iblk m c 2 t : Vec Ideal S6144 .f32) (ix1 j)
      = logit (xcat m c) (m ((c : Thread nD τ).loc main_arg0)) (m ((c : Thread nD τ).loc main_arg1)) (brow qq p) j := by
  unfold logit
  rw [acc_final m c t ht qq hq p j, bblk_apply]

/-- The cell block at (p, q) is the specification's new cell state at (256q+p, q). -/
theorem cell_block (c : Dev nD) (t : Fin cfg0.N) (ht : t.val % 4 = 3) (qq : Fin 16) (hq : t.val / 4 = qq.val) (p : Fin 256) (q : Fin 2048) :
    k0_pay3 (F := Ideal) (biasIn (iblk m c 2 t)) (biasCand (iblk m c 2 t)) (accIn (outsAt0 m c t.val t.isLt).2.2)
        (accCand (outsAt0 m c t.val t.isLt).2.2) (iblk m c 3 t) (ix2 p q)
      = newCAt (xcat m c) (m ((c : Thread nD τ).loc main_arg0)) (m ((c : Thread nD τ).loc main_arg1)) (m ((c : Thread nD τ).loc main_arg4)) (brow qq p) q := by
  unfold newCAt
  rw [pay3_at, biasIn_at, biasCand_at, accIn_at, accCand_at, cblk_apply m c t qq hq, logit_at m c t ht qq hq, logit_at m c t ht qq hq]

/-- The hidden block at (p, q) is the specification's new hidden state at (256q+p, q). -/
theorem hidden_block (c : Dev nD) (t : Fin cfg0.N) (ht : t.val % 4 = 3) (qq : Fin 16) (hq : t.val / 4 = qq.val) (p : Fin 256) (q : Fin 2048) :
    k0_pay4 (F := Ideal) (biasIn (iblk m c 2 t)) (biasOut (iblk m c 2 t)) (biasCand (iblk m c 2 t)) (accIn (outsAt0 m c t.val t.isLt).2.2)
        (accCand (outsAt0 m c t.val t.isLt).2.2) (iblk m c 3 t) (accOut (outsAt0 m c t.val t.isLt).2.2) (ix2 p q)
      = newHAt (xcat m c) (m ((c : Thread nD τ).loc main_arg0)) (m ((c : Thread nD τ).loc main_arg1)) (m ((c : Thread nD τ).loc main_arg4)) (brow qq p) q := by
  unfold newHAt
  rw [pay4_at, cell_block m c t ht qq hq, biasOut_at, accOut_at, logit_at m c t ht qq hq]

/-- The accumulator the last block reads back is the one this point leaves: the step over what the point before left. -/
theorem acc_this_point (c : Dev nD) (t : Fin cfg0.N) (h0 : ¬t.val % 4 = 0) (ht : t.val % 4 = 3)
    (prev : Vec Ideal S256x6144 .f32) (hp : prev = (outsAt0 m c (t.val - 1) (Nat.lt_of_le_of_lt (Nat.sub_le _ _) t.isLt)).2.2) :
    accStep prev (iblk m c 0 t) (iblk m c 1 t) = (outsAt0 m c t.val t.isLt).2.2 := by
  have h1 := outsAt0_C m c t h0 ht
  have h2 := scratch_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr ht) (iblk m c 0 t) (iblk m c 1 t) (iblk m c 2 t) (iblk m c 3 t) prev
  rw [← h2, h1, hp]

/-- WHAT POINT t WRITES BACK to the new cell state is its block of the specification. -/
theorem flushed5_eq (c : Dev nD) (t : Fin cfg0.N) (hf : (cfg0.win 5).flush t = true) :
    (dats m 0 c).flushed 5 t = ((cfg0.win 5).blk t).view.read (Elt Ideal) (specC m c) := by
  have ht : t.val % 4 = 3 := (flush0_5 t).mp hf
  have h0 : ¬t.val % 4 = 0 := by omega
  have hN : cfg0.N = 64 := N_0
  have hlt := t.isLt
  obtain ⟨-, -, -, -, -, -, -, -, -, e0, e1⟩ := idx_facts t
  rw [Value.flushed5_C m c t h0 ht, cell_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr ht) (iblk m c 0 t) (iblk m c 1 t) (iblk m c 2 t) (iblk m c 3 t) (outsAt0 m c (t.val - 1) (Nat.lt_of_le_of_lt (Nat.sub_le _ _) t.isLt)).2.2, acc_this_point m c t h0 ht _ rfl]
  have key : k0_pay3 (F := Ideal) (biasIn (iblk m c 2 t)) (biasCand (iblk m c 2 t)) (accIn (outsAt0 m c t.val t.isLt).2.2)
        (accCand (outsAt0 m c t.val t.isLt).2.2) (iblk m c 3 t)
      = fun y : S256x2048.Idx => specC m c (ix2 (brow ⟨t.val / 4, by omega⟩ (y 0)) (y 1)) := funext fun y => by
    obtain ⟨p, q, rfl⟩ : ∃ (p : Fin 256) (q : Fin 2048), y = ix2 p q := ⟨y 0, y 1, eq_ix2 y⟩
    exact cell_block m c t ht ⟨t.val / 4, by omega⟩ rfl p q
  rw [key]
  funext y
  show specC m c (ix2 (brow ⟨t.val / 4, by omega⟩ (y 0)) (y 1)) = specC m c (((cfg0.win 5).blk t).view.emb y)
  congr 1
  funext a; apply Fin.ext
  match a with
  | ⟨0, _⟩ => show 256 * (t.val / 4) + (y 0).val = win0_5.index t (0 : Fin 2) * 256 + 1 * (y 0).val; rw [e0]; omega
  | ⟨1, _⟩ => show (y 1).val = win0_5.index t (1 : Fin 2) * 2048 + 1 * (y 1).val; rw [e1]; omega

/-- WHAT POINT t WRITES BACK to the new hidden state is its block of the specification. -/
theorem flushed4_eq (c : Dev nD) (t : Fin cfg0.N) (hf : (cfg0.win 4).flush t = true) :
    (dats m 0 c).flushed 4 t = ((cfg0.win 4).blk t).view.read (Elt Ideal) (specH m c) := by
  have ht : t.val % 4 = 3 := (flush0_4 t).mp hf
  have h0 : ¬t.val % 4 = 0 := by omega
  have hN : cfg0.N = 64 := N_0
  have hlt := t.isLt
  obtain ⟨-, -, -, -, -, -, -, e0, e1, -⟩ := idx_facts t
  rw [Value.flushed4_C m c t h0 ht, hidden_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr ht) (iblk m c 0 t) (iblk m c 1 t) (iblk m c 2 t) (iblk m c 3 t) (outsAt0 m c (t.val - 1) (Nat.lt_of_le_of_lt (Nat.sub_le _ _) t.isLt)).2.2, acc_this_point m c t h0 ht _ rfl]
  have key : k0_pay4 (F := Ideal) (biasIn (iblk m c 2 t)) (biasOut (iblk m c 2 t)) (biasCand (iblk m c 2 t)) (accIn (outsAt0 m c t.val t.isLt).2.2)
        (accCand (outsAt0 m c t.val t.isLt).2.2) (iblk m c 3 t) (accOut (outsAt0 m c t.val t.isLt).2.2)
      = fun y : S256x2048.Idx => specH m c (ix2 (brow ⟨t.val / 4, by omega⟩ (y 0)) (y 1)) := funext fun y => by
    obtain ⟨p, q, rfl⟩ : ∃ (p : Fin 256) (q : Fin 2048), y = ix2 p q := ⟨y 0, y 1, eq_ix2 y⟩
    exact hidden_block m c t ht ⟨t.val / 4, by omega⟩ rfl p q
  rw [key]
  funext y
  show specH m c (ix2 (brow ⟨t.val / 4, by omega⟩ (y 0)) (y 1)) = specH m c (((cfg0.win 4).blk t).view.emb y)
  congr 1
  funext a; apply Fin.ext
  match a with
  | ⟨0, _⟩ => show 256 * (t.val / 4) + (y 0).val = win0_4.index t (0 : Fin 2) * 256 + 1 * (y 0).val; rw [e0]; omega
  | ⟨1, _⟩ => show (y 1).val = win0_4.index t (1 : Fin 2) * 2048 + 1 * (y 1).val; rw [e1]; omega

end Cert.KernelIdeal.KValue

end
-- ==== Proof.KFinal.lean ====
/-
  The kernel's two result arrays after the run (at the ideal instance).

  The new hidden state and the new cell state are written back one 256-row block at a time, by the last of the four
  grid points of each row block; the sixteen blocks tile the 4096 rows, and each is its rows of the specification. So
  both arrays end holding the specification, and the arguments are as they were.
-/
import proofs.«155219_j84705345012109_1_alg».proof.Proof.KOut

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- An index is in point t's block of the new hidden state iff each coordinate is in the block's range on its axis. -/
theorem mem_blk4 (t : Fin cfg0.N) (i : S4096x2048.Idx) :
    i ∈ ((cfg0.win 4).blk t).view.set ↔ ∀ a : Fin 2, win0_4.index t a * S256x2048.size a ≤ (i a).val ∧ (i a).val < win0_4.index t a * S256x2048.size a + S256x2048.size a := by
  show i ∈ ((View.whole main_v3_0).slice (win0_4.rect t)).set ↔ _
  rw [View.set_slice_whole, Rect.mem_set_unit]
  exact Iff.rfl

/-- Row r of the new hidden state is written back by the last point of its row block, 4 (r / 256) + 3. -/
theorem cover4 (i : S4096x2048.Idx) : ∃ t : Fin cfg0.N, (cfg0.win 4).flush t = true ∧ i ∈ ((cfg0.win 4).blk t).view.set := by
  have hN : cfg0.N = 64 := N_0
  have hi0 : (i 0).val < 4096 := (i 0).isLt
  have hi1 : (i 1).val < 2048 := (i 1).isLt
  have hb : 4 * ((i 0).val / 256) + 3 < cfg0.N := by omega
  have hidx := idx_facts ⟨4 * ((i 0).val / 256) + 3, hb⟩
  obtain ⟨-, -, -, -, -, -, -, e0, e1, -⟩ := hidx
  refine ⟨⟨4 * ((i 0).val / 256) + 3, hb⟩, (flush0_4 _).mpr (by show (4 * ((i 0).val / 256) + 3) % 4 = 3; omega), ?_⟩
  rw [mem_blk4]
  intro a
  match a with
  | ⟨0, _⟩ =>
    show win0_4.index ⟨4 * ((i 0).val / 256) + 3, hb⟩ (0 : Fin 2) * 256 ≤ (i 0).val ∧ (i 0).val < win0_4.index ⟨4 * ((i 0).val / 256) + 3, hb⟩ (0 : Fin 2) * 256 + 256
    rw [e0]
    show (4 * ((i 0).val / 256) + 3) / 4 * 256 ≤ (i 0).val ∧ (i 0).val < (4 * ((i 0).val / 256) + 3) / 4 * 256 + 256
    omega
  | ⟨1, _⟩ =>
    show win0_4.index ⟨4 * ((i 0).val / 256) + 3, hb⟩ (1 : Fin 2) * 2048 ≤ (i 1).val ∧ (i 1).val < win0_4.index ⟨4 * ((i 0).val / 256) + 3, hb⟩ (1 : Fin 2) * 2048 + 2048
    rw [e1]
    omega

/-- So the new hidden state ends holding the specification. -/
theorem final4 (c : Dev nD) : (dats m 0 c).arrAt 4 cfg0.N = specH m c :=
  (dats m 0 c).arrAt_eq_of_cover 4 (specH m c) (flushed4_eq m c) cover4

/-- An index is in point t's block of the new cell state iff each coordinate is in the block's range on its axis. -/
theorem mem_blk5 (t : Fin cfg0.N) (i : S4096x2048.Idx) :
    i ∈ ((cfg0.win 5).blk t).view.set ↔ ∀ a : Fin 2, win0_5.index t a * S256x2048.size a ≤ (i a).val ∧ (i a).val < win0_5.index t a * S256x2048.size a + S256x2048.size a := by
  show i ∈ ((View.whole main_v3_1).slice (win0_5.rect t)).set ↔ _
  rw [View.set_slice_whole, Rect.mem_set_unit]
  exact Iff.rfl

/-- Row r of the new cell state is written back by the last point of its row block, 4 (r / 256) + 3. -/
theorem cover5 (i : S4096x2048.Idx) : ∃ t : Fin cfg0.N, (cfg0.win 5).flush t = true ∧ i ∈ ((cfg0.win 5).blk t).view.set := by
  have hN : cfg0.N = 64 := N_0
  have hi0 : (i 0).val < 4096 := (i 0).isLt
  have hi1 : (i 1).val < 2048 := (i 1).isLt
  have hb : 4 * ((i 0).val / 256) + 3 < cfg0.N := by omega
  have hidx := idx_facts ⟨4 * ((i 0).val / 256) + 3, hb⟩
  obtain ⟨-, -, -, -, -, -, -, -, -, e0, e1⟩ := hidx
  refine ⟨⟨4 * ((i 0).val / 256) + 3, hb⟩, (flush0_5 _).mpr (by show (4 * ((i 0).val / 256) + 3) % 4 = 3; omega), ?_⟩
  rw [mem_blk5]
  intro a
  match a with
  | ⟨0, _⟩ =>
    show win0_5.index ⟨4 * ((i 0).val / 256) + 3, hb⟩ (0 : Fin 2) * 256 ≤ (i 0).val ∧ (i 0).val < win0_5.index ⟨4 * ((i 0).val / 256) + 3, hb⟩ (0 : Fin 2) * 256 + 256
    rw [e0]
    show (4 * ((i 0).val / 256) + 3) / 4 * 256 ≤ (i 0).val ∧ (i 0).val < (4 * ((i 0).val / 256) + 3) / 4 * 256 + 256
    omega
  | ⟨1, _⟩ =>
    show win0_5.index ⟨4 * ((i 0).val / 256) + 3, hb⟩ (1 : Fin 2) * 2048 ≤ (i 1).val ∧ (i 1).val < win0_5.index ⟨4 * ((i 0).val / 256) + 3, hb⟩ (1 : Fin 2) * 2048 + 2048
    rw [e1]
    omega

/-- So the new cell state ends holding the specification. -/
theorem final5 (c : Dev nD) : (dats m 0 c).arrAt 5 cfg0.N = specC m c :=
  (dats m 0 c).arrAt_eq_of_cover 5 (specC m c) (flushed5_eq m c) cover5

/-- The run, read: both results at the specification of the argument arrays, the arguments unchanged. -/
theorem run : θ_run defs (onTc (τ := τ) (main (F := Ideal))) ⟨m, fun _ => 0, ρ⟩ fun r => ∀ c : Dev nD,
      r.2.mem ((c : Thread nD τ).loc main_v3_0) = specH m c
      ∧ r.2.mem ((c : Thread nD τ).loc main_v3_1) = specC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final4 m c), (h c).2.1.trans (final5 m c), (h c).2.2⟩)
    (Value.run_blocks m ρ)

end Cert.KernelIdeal.KValue

end
-- ==== Proof.RefRun.lean ====
/-
  The reference program's run, read back as a straight line of operations.

  The reference computes, for X = [old_h | input] (4096 × 4096), weights W (4096 × 6144), bias b (6144) and old cell
  state C (4096 × 2048): the gate logits z = X · W + b, their three column bands of width 2048, the logistic function
  spelled 1 / (1 + e^(−z)) on the first two bands, the exponential linear unit on the third (an outlined function
  that selects twice on z > 0), then new_c = C + elu(z_cand) · σ(z_in) and new_h = tanh(new_c) · σ(z_out).

  This module lists the forty-three operations in order, the outlined functions' operations at their call sites,
  shows that @main is that list run in sequence, and reads the two results off the list as two composed terms
  `refH` and `refC` of the arguments' contents; the arguments themselves are written by no operation.
-/
import proofs.«155219_j84705345012109_1_alg».proof.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo

variable {F : FTy → Type} [FloatOps F] [Cert.ReferenceIdeal.Facts]

open Facts₀ Facts

/-- The candidate band's buffer as the typed reference the outlined function takes. -/
abbrev cand : TRef sig ⟨S4096x2048, .f32⟩ := .of main_v19

/-- @main's forty-three operations, in order. The call of the exponential linear unit is fifteen of them, into the
    call's own buffers: the zero and its broadcast and the comparison z > 0, twice; a third zero, converted and
    broadcast, and the inner select (0 where z > 0, z elsewhere); e^· − 1 of it; the one, its broadcast and the
    product; the outer select (z where z > 0, the product elsewhere). -/
abbrev ops : List (HloOp τ sig (Elt F)) :=
  [ binary main_arg3 main_arg2 main_v0 ((fun a b => concatenate S4096x4096 1 [⟨S4096x2048, a⟩, ⟨S4096x2048, b⟩] concatenates_S4096x2048_S4096x2048_S4096x4096_d1) : (⟨S4096x2048, .f32⟩ : BufTy).Contents (Elt F) → (⟨S4096x2048, .f32⟩ : BufTy).Contents (Elt F) → (⟨S4096x4096, .f32⟩ : BufTy).Contents (Elt F)),
    binary main_v0 main_arg0 main_v1 ((fun l r => Host.dotGeneral dot_S4096x4096_S4096x6144_S4096x6144_1_0_0_1_n_n none l r) : (⟨S4096x4096, .f32⟩ : BufTy).Contents (Elt F) → (⟨S4096x6144, .f32⟩ : BufTy).Contents (Elt F) → (⟨S4096x6144, .f32⟩ : BufTy).Contents (Elt F)),
    unary main_arg1 main_v2 (broadcastInDim S1x6144 ![1] bcast_S6144_S1x6144_1 : (⟨S6144, .f32⟩ : BufTy).Contents (Elt F) → (⟨S1x6144, .f32⟩ : BufTy).Contents (Elt F)),
    unary main_v2 main_v3 (broadcastInDim S4096x6144 ![0, 1] bcast_S1x6144_S4096x6144_0_1 : (⟨S1x6144, .f32⟩ : BufTy).Contents (Elt F) → (⟨S4096x6144, .f32⟩ : BufTy).Contents (Elt F)),
    binary main_v1 main_v3 main_v4 (addf : (⟨S4096x6144, .f32⟩ : BufTy).Contents (Elt F) → (⟨S4096x6144, .f32⟩ : BufTy).Contents (Elt F) → (⟨S4096x6144, .f32⟩ : BufTy).Contents (Elt F)),
    unary main_v4 main_v5 ((extractStridedSlice S4096x2048 ![0, 0] · slices_S4096x6144_S4096x2048_0_0) : (⟨S4096x6144, .f32⟩ : BufTy).Contents (Elt F) → (⟨S4096x2048, .f32⟩ : BufTy).Contents (Elt F)),
    unary main_v5 main_v6 (Host.negf : (⟨S4096x2048, .f32⟩ : BufTy).Contents (Elt F) → (⟨S4096x2048, .f32⟩ : BufTy).Contents (Elt F)),
    unary main_v6 main_v7 (Host.exp : (⟨S4096x2048, .f32⟩ : BufTy).Contents (Elt F) → (⟨S4096x2048, .f32⟩ : BufTy).Contents (Elt F)),
    nullary main_cst (constant S_ .f32 0x3F800000#32),
    unary main_cst main_v8 (broadcastInDim S4096x2048 ![] bcast_S_S4096x2048 : (⟨S_, .f32⟩ : BufTy).Contents (Elt F) → (⟨S4096x2048, .f32⟩ : BufTy).Contents (Elt F)),
    binary main_v8 main_v7 main_v9 (addf : (⟨S4096x2048, .f32⟩ : BufTy).Contents (Elt F) → (⟨S4096x2048, .f32⟩ : BufTy).Contents (Elt F) → (⟨S4096x2048, .f32⟩ : BufTy).Contents (Elt F)),
    nullary main_cst_0 (constant S_ .f32 0x3F800000#32),
    unary main_cst_0 main_v10 (broadcastInDim S4096x2048 ![] bcast_S_S4096x2048 : (⟨S_, .f32⟩ : BufTy).Contents (Elt F) → (⟨S4096x2048, .f32⟩ : BufTy).Contents (Elt F)),
    binary main_v10 main_v9 main_v11 (Host.divf : (⟨S4096x2048, .f32⟩ : BufTy).Contents (Elt F) → (⟨S4096x2048, .f32⟩ : BufTy).Contents (Elt F) → (⟨S4096x2048, .f32⟩ : BufTy).Contents (Elt F)),
    unary main_v4 main_v12 ((extractStridedSlice S4096x2048 ![0, 2048] · slices_S4096x6144_S4096x2048_0_2048) : (⟨S4096x6144, .f32⟩ : BufTy).Contents (Elt F) → (⟨S4096x2048, .f32⟩ : BufTy).Contents (Elt F)),
    unary main_v12 main_v13 (Host.negf : (⟨S4096x2048, .f32⟩ : BufTy).Contents (Elt F) → (⟨S4096x2048, .f32⟩ : BufTy).Contents (Elt F)),
    unary main_v13 main_v14 (Host.exp : (⟨S4096x2048, .f32⟩ : BufTy).Contents (Elt F) → (⟨S4096x2048, .f32⟩ : BufTy).Contents (Elt F)),
    nullary main_cst_1 (constant S_ .f32 0x3F800000#32),
    unary main_cst_1 main_v15 (broadcastInDim S4096x2048 ![] bcast_S_S4096x2048 : (⟨S_, .f32⟩ : BufTy).Contents (Elt F) → (⟨S4096x2048, .f32⟩ : BufTy).Contents (Elt F)),
    binary main_v15 main_v14 main_v16 (addf : (⟨S4096x2048, .f32⟩ : BufTy).Contents (Elt F) → (⟨S4096x2048, .f32⟩ : BufTy).Contents (Elt F) → (⟨S4096x2048, .f32⟩ : BufTy).Contents (Elt F)),
    nullary main_cst_2 (constant S_ .f32 0x3F800000#32),
    unary main_cst_2 main_v17 (broadcastInDim S4096x2048 ![] bcast_S_S4096x2048 : (⟨S_, .f32⟩ : BufTy).Contents (Elt F) → (⟨S4096x2048, .f32⟩ : BufTy).Contents (Elt F)),
    binary main_v17 main_v16 main_v18 (Host.divf : (⟨S4096x2048, .f32⟩ : BufTy).Contents (Elt F) → (⟨S4096x2048, .f32⟩ : BufTy).Contents (Elt F) → (⟨S4096x2048, .f32⟩ : BufTy).Contents (Elt F)),
    unary main_v4 main_v19 ((extractStridedSlice S4096x2048 ![0, 4096] · slices_S4096x6144_S4096x2048_0_4096) : (⟨S4096x6144, .f32⟩ : BufTy).Contents (Elt F) → (⟨S4096x2048, .f32⟩ : BufTy).Contents (Elt F)),
    TRef.nullary main_call0.cst (constant S_ .f32 0x00000000#32),
    TRef.unary main_call0.cst main_call0.v0 (broadcastInDim S4096x2048 ![] bcast_S_S4096x2048),
    TRef.binary cand main_call0.v0 main_call0.v1 (cmpf .ogt),
    TRef.nullary main_call0.cst_0 (constant S_ .f32 0x00000000#32),
    TRef.unary main_call0.cst_0 main_call0.v2 (broadcastInDim S4096x2048 ![] bcast_S_S4096x2048),
    TRef.binary cand main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S4096x2048 ![] bcast_S_S4096x2048),
    TRef.ternary main_call0.v3 main_call0.call0.v1 cand main_call0.call0.v2 select,
    TRef.unary main_call0.call0.v2 main_call0.v5 Host.expm1,
    TRef.nullary main_call0.cst_2 (constant S_ .f32 0x3F800000#32),
    TRef.unary main_call0.cst_2 main_call0.v6 (broadcastInDim S4096x2048 ![] bcast_S_S4096x2048),
    TRef.binary main_call0.v6 main_call0.v5 main_call0.v7 mulf,
    TRef.ternary main_call0.v1 cand main_call0.v7 main_call0.call1.v0 select,
    binary main_v20 main_v11 main_v21 (mulf : (⟨S4096x2048, .f32⟩ : BufTy).Contents (Elt F) → (⟨S4096x2048, .f32⟩ : BufTy).Contents (Elt F) → (⟨S4096x2048, .f32⟩ : BufTy).Contents (Elt F)),
    binary main_arg4 main_v21 main_v22 (addf : (⟨S4096x2048, .f32⟩ : BufTy).Contents (Elt F) → (⟨S4096x2048, .f32⟩ : BufTy).Contents (Elt F) → (⟨S4096x2048, .f32⟩ : BufTy).Contents (Elt F)),
    unary main_v22 main_v23 (Host.tanh : (⟨S4096x2048, .f32⟩ : BufTy).Contents (Elt F) → (⟨S4096x2048, .f32⟩ : BufTy).Contents (Elt F)),
    binary main_v23 main_v18 main_v24 (mulf : (⟨S4096x2048, .f32⟩ : BufTy).Contents (Elt F) → (⟨S4096x2048, .f32⟩ : BufTy).Contents (Elt F) → (⟨S4096x2048, .f32⟩ : BufTy).Contents (Elt F)) ]

-- forty-three binds re-associated: the rewrite under the chain recurses once per statement
set_option maxRecDepth 2048 in
/-- @main is that straight line: the outlined functions' definitions unfolded at their calls, both sides are one chain
    of steps once sequencing is re-associated. -/
theorem main_eq (c : Dev nD) : main (F := F) c = seq ops := by
  simp only [main, fn_elu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation's buffers are TensorCore buffers of the device. -/
theorem ops_sub : (ops : List (HloOp τ sig (Elt F))).Forall fun op => op.bufs ⊆ tcRefs τ sig :=
  ⟨binary_bufs_sub .., binary_bufs_sub .., unary_bufs_sub .., unary_bufs_sub .., binary_bufs_sub .., unary_bufs_sub ..,
    unary_bufs_sub .., unary_bufs_sub .., nullary_bufs_sub .., unary_bufs_sub .., binary_bufs_sub .., nullary_bufs_sub ..,
    unary_bufs_sub .., binary_bufs_sub .., unary_bufs_sub .., unary_bufs_sub .., unary_bufs_sub .., nullary_bufs_sub ..,
    unary_bufs_sub .., binary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., binary_bufs_sub .., binary_bufs_sub .., unary_bufs_sub ..,
    binary_bufs_sub ..⟩

/-- For any float values, from any memory with zero counters: every weakly fair execution of @main terminates, and
    every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefValue.lean ====
/-
  The reference's two results, read at an index, are the specification's new hidden state and new cell state.

  The run of the reference leaves each result buffer at a composed term of the arguments' contents (`refH`, `refC`
  below: the program's operations applied in order). Read at the index (r, q):
    • the matrix product X · W at (r, j) is the sum over the one contracted axis of X (r, k) · W (k, j);
    • the bias, broadcast first to one row and then along the rows, is b (j) at (r, j);
    • a column band of width 2048 at offset o reads column o + q;
    • the broadcast words 0x3F800000 and 0x00000000 are the reals 1 and 0;
    • 1 / (1 + e^(−z)) is the specification's logistic function, literally;
    • the outlined exponential linear unit selects z where z > 0 and 1 · (e^y − 1) elsewhere, with y = 0 where z > 0 and
      y = z elsewhere: on the branch that is taken y = z, so it is z where z > 0 and e^z − 1 elsewhere.
  Every step is stated for one element over plain extended reals, or for one operation over an arbitrary operand, and
  the results are assembled by rewriting; X = [old_h | input] stays the folded term `xcat H I` throughout.
-/
import proofs.«155219_j84705345012109_1_alg».proof.Proof.RefRun
import proofs.«155219_j84705345012109_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Idealize.ShloMosaic Idealize.ShloMosaic.TcCoe Idealize.SL.Sem Idealize.ShloMosaic.StableHlo
open Idealize.ShloMosaic.ValueIdx

variable [Cert.ReferenceIdeal.Facts]

open Facts₀ Facts

/-! ## The composed terms -/

section Terms
variable {F : FTy → Type} [FloatOps F]

/-- The word 1.0 broadcast over a band. -/
def ones : FVec F S4096x2048 .f32 := broadcastInDim S4096x2048 ![] bcast_S_S4096x2048 (constant S_ .f32 0x3F800000#32)
/-- The word 0.0 broadcast over a band. -/
def zeros : FVec F S4096x2048 .f32 := broadcastInDim S4096x2048 ![] bcast_S_S4096x2048 (constant S_ .f32 0x00000000#32)

/-- The gate logits as the reference computes them: X · W plus the bias broadcast to one row, then along the rows. -/
def logits (X : FVec F S4096x4096 .f32) (W : FVec F S4096x6144 .f32) (b : FVec F S6144 .f32) : FVec F S4096x6144 .f32 :=
  addf (Host.dotGeneral dot_S4096x4096_S4096x6144_S4096x6144_1_0_0_1_n_n none X W)
    (broadcastInDim S4096x6144 ![0, 1] bcast_S1x6144_S4096x6144_0_1 (broadcastInDim S1x6144 ![1] bcast_S6144_S1x6144_1 b))

/-- The three column bands of the logits. -/
def bandIn (Z : FVec F S4096x6144 .f32) : FVec F S4096x2048 .f32 := extractStridedSlice S4096x2048 ![0, 0] Z slices_S4096x6144_S4096x2048_0_0
def bandOut (Z : FVec F S4096x6144 .f32) : FVec F S4096x2048 .f32 := extractStridedSlice S4096x2048 ![0, 2048] Z slices_S4096x6144_S4096x2048_0_2048
def bandCand (Z : FVec F S4096x6144 .f32) : FVec F S4096x2048 .f32 := extractStridedSlice S4096x2048 ![0, 4096] Z slices_S4096x6144_S4096x2048_0_4096

/-- The logistic function as the reference spells it: 1 / (1 + e^(−z)). -/
def sigmV (z : FVec F S4096x2048 .f32) : FVec F S4096x2048 .f32 := Host.divf ones (addf ones (Host.exp (Host.negf z)))

/-- The outlined exponential linear unit: z where z > 0, elsewhere 1 · (e^y − 1) with y = 0 where z > 0, z elsewhere. -/
def eluV (z : FVec F S4096x2048 .f32) : FVec F S4096x2048 .f32 :=
  select (cmpf .ogt z zeros) z (mulf ones (Host.expm1 (select (cmpf .ogt z zeros) zeros z)))

/-- The new cell state as the reference computes it. -/
def refC (X : FVec F S4096x4096 .f32) (W : FVec F S4096x6144 .f32) (b : FVec F S6144 .f32) (C : FVec F S4096x2048 .f32) : FVec F S4096x2048 .f32 :=
  addf C (mulf (eluV (bandCand (logits X W b))) (sigmV (bandIn (logits X W b))))

/-- The new hidden state as the reference computes it. -/
def refH (X : FVec F S4096x4096 .f32) (W : FVec F S4096x6144 .f32) (b : FVec F S6144 .f32) (C : FVec F S4096x2048 .f32) : FVec F S4096x2048 .f32 :=
  mulf (Host.tanh (refC X W b C)) (sigmV (bandOut (logits X W b)))

/-- X = [old_h | input] at any float values. -/
abbrev xcatF (H I : FVec F S4096x2048 .f32) : FVec F S4096x4096 .f32 :=
  concatenate S4096x4096 1 [⟨S4096x2048, H⟩, ⟨S4096x2048, I⟩] concatenates_S4096x2048_S4096x2048_S4096x4096_d1

set_option maxRecDepth 8192 in
set_option maxHeartbeats 400000 in
/-- The fold of the operations at the new cell state's buffer is `refC` of the arguments' contents. -/
theorem v22_eq (V : Valuation τ sig (Elt F)) :
    after ops V (main_v22 : DevRef τ sig)
      = refC (xcatF (V (main_arg3 : DevRef τ sig)) (V (main_arg2 : DevRef τ sig))) (V (main_arg0 : DevRef τ sig))
          (V (main_arg1 : DevRef τ sig)) (V (main_arg4 : DevRef τ sig)) := by
  after_results_simp
  rfl

set_option maxRecDepth 8192 in
set_option maxHeartbeats 400000 in
/-- The fold of the operations at the new hidden state's buffer is `refH` of the arguments' contents. -/
theorem v24_eq (V : Valuation τ sig (Elt F)) :
    after ops V (main_v24 : DevRef τ sig)
      = refH (xcatF (V (main_arg3 : DevRef τ sig)) (V (main_arg2 : DevRef τ sig))) (V (main_arg0 : DevRef τ sig))
          (V (main_arg1 : DevRef τ sig)) (V (main_arg4 : DevRef τ sig)) := by
  after_results_simp
  rfl

/-- No operation writes an argument's buffer. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

end Terms

/-! ## One element -/

/-- The outlined exponential linear unit on one element: on the branch that is taken the inner select returns z. -/
theorem elu_elem (x : EReal) :
    Scalar.select (Ideal.cmp .ogt x 0) x (1 * (Ideal.exp (Scalar.select (Ideal.cmp .ogt x 0) 0 x) - 1)) = Cert.Spec.elu x := by
  show _ = Scalar.select (Ideal.cmp .ogt x 0) x (Ideal.exp x - 1)
  by_cases h : Ideal.cmp .ogt x 0 = 1#1
  · simp only [h, select_one]
  · simp only [eq_zero_of_ne_one h, select_zero, one_mul]

/-! ## One operation at an index -/

/-- The broadcast word 1.0 is the real 1 everywhere. -/
theorem ones_apply (i : S4096x2048.Idx) : ones (F := Ideal) i = 1 := by
  unfold ones
  rw [broadcastInDim_apply ![] bcast_S_S4096x2048 _ i ix0 (fun a => a.elim0)]
  exact (constant_apply _ _).trans Cert.Spec.word_one

/-- The broadcast word 0.0 is the real 0 everywhere. -/
theorem zeros_apply (i : S4096x2048.Idx) : zeros (F := Ideal) i = 0 := by
  unfold zeros
  rw [broadcastInDim_apply ![] bcast_S_S4096x2048 _ i ix0 (fun a => a.elim0)]
  exact (constant_apply _ _).trans Cert.Spec.word_zero

/-- 1 / (1 + e^(−z)) at an index is the specification's logistic function of the element. -/
theorem sigmV_apply (z : FVec Ideal S4096x2048 .f32) (i : S4096x2048.Idx) : sigmV z i = Cert.Spec.sigm (z i) := by
  show Ideal.div (ones (F := Ideal) i) (ones (F := Ideal) i + Ideal.exp (-(z i))) = _
  rw [ones_apply]
  rfl

/-- The outlined exponential linear unit at an index is the specification's of the element. -/
theorem eluV_apply (z : FVec Ideal S4096x2048 .f32) (i : S4096x2048.Idx) : eluV z i = Cert.Spec.elu (z i) := by
  show Scalar.select (Ideal.cmp .ogt (z i) (zeros (F := Ideal) i)) (z i)
      (ones (F := Ideal) i * (Ideal.exp (Scalar.select (Ideal.cmp .ogt (z i) (zeros (F := Ideal) i)) (zeros (F := Ideal) i) (z i)) - 1)) = _
  rw [ones_apply, zeros_apply]
  exact elu_elem (z i)

/-- The hyperbolic tangent at an index is that of the element. -/
theorem tanhV_apply (v : FVec Ideal S4096x2048 .f32) (i : S4096x2048.Idx) : Host.tanh v i = Ideal.tanh (v i) := rfl

/-- The three bands read column q, 2048 + q and 4096 + q of row r. -/
theorem bandIn_apply {α : Type} (Z : S4096x6144.Idx → α) (r : Fin 4096) (q : Fin 2048) :
    extractStridedSlice S4096x2048 ![0, 0] Z slices_S4096x6144_S4096x2048_0_0 (ix2 r q) = Z (ix2 r (Cert.Spec.colIn q)) :=
  extractStridedSlice_apply ![0, 0] Z _ (ix2 r q) (ix2 r (Cert.Spec.colIn q)) fun a => by
    match a with
    | ⟨0, _⟩ => exact (Nat.zero_add _).symm
    | ⟨1, _⟩ => exact (Nat.zero_add _).symm
theorem bandOut_apply {α : Type} (Z : S4096x6144.Idx → α) (r : Fin 4096) (q : Fin 2048) :
    extractStridedSlice S4096x2048 ![0, 2048] Z slices_S4096x6144_S4096x2048_0_2048 (ix2 r q) = Z (ix2 r (Cert.Spec.colOut q)) :=
  extractStridedSlice_apply ![0, 2048] Z _ (ix2 r q) (ix2 r (Cert.Spec.colOut q)) fun a => by
    match a with
    | ⟨0, _⟩ => exact (Nat.zero_add _).symm
    | ⟨1, _⟩ => rfl
theorem bandCand_apply {α : Type} (Z : S4096x6144.Idx → α) (r : Fin 4096) (q : Fin 2048) :
    extractStridedSlice S4096x2048 ![0, 4096] Z slices_S4096x6144_S4096x2048_0_4096 (ix2 r q) = Z (ix2 r (Cert.Spec.colCand q)) :=
  extractStridedSlice_apply ![0, 4096] Z _ (ix2 r q) (ix2 r (Cert.Spec.colCand q)) fun a => by
    match a with
    | ⟨0, _⟩ => exact (Nat.zero_add _).symm
    | ⟨1, _⟩ => rfl

/-- The bias, broadcast to one row and then along the rows, is b (j) at (r, j). -/
theorem bias_apply {α : Type} (b : S6144.Idx → α) (r : Fin 4096) (j : Fin 6144) :
    broadcastInDim S4096x6144 ![0, 1] bcast_S1x6144_S4096x6144_0_1 (broadcastInDim S1x6144 ![1] bcast_S6144_S1x6144_1 b) (ix2 r j)
      = b (ix1 j) := by
  rw [broadcastInDim_apply ![0, 1] bcast_S1x6144_S4096x6144_0_1 _ (ix2 r j) (ix2 (0 : Fin 1) j) (fun a => by
        match a with
        | ⟨0, _⟩ => rfl
        | ⟨1, _⟩ => rfl),
    broadcastInDim_apply ![1] bcast_S6144_S1x6144_1 b (ix2 (0 : Fin 1) j) (ix1 j) (fun a => by
        match a with
        | ⟨0, _⟩ => rfl)]

/-! ## The matrix product at an index -/

/-- The product's dimension numbers: one contracted axis of extent 4096, no batch axis. -/
abbrev D : DotDims S4096x4096 S4096x6144 S4096x6144 := dot_S4096x4096_S4096x6144_S4096x6144_1_0_0_1_n_n

/-- The left operand is read at the result's row … -/
theorem lhs_0 (i : S4096x6144.Idx) (q : D.contr.Idx) : (D.lhsIdx i q 0).val = (i 0).val := by
  unfold DotDims.lhsIdx
  rw [dif_neg (show ¬(0 : Fin S4096x4096.rank) ∈ D.lhsBatch from List.not_mem_nil),
    dif_pos (show (0 : Fin S4096x4096.rank) ∈ D.lhsNonContracting from List.mem_singleton.mpr rfl)]
  rfl
/-- … and the contraction position; … -/
theorem lhs_1 (i : S4096x6144.Idx) (q : D.contr.Idx) : (D.lhsIdx i q 1).val = (q ⟨0, Nat.one_pos⟩).val :=
  D.lhsIdx_val_of_single rfl i q
/-- … the right operand at the contraction position … -/
theorem rhs_0 (i : S4096x6144.Idx) (q : D.contr.Idx) : (D.rhsIdx i q 0).val = (q ⟨0, Nat.one_pos⟩).val :=
  D.rhsIdx_val_of_single rfl i q
/-- … and the result's column. -/
theorem rhs_1 (i : S4096x6144.Idx) (q : D.contr.Idx) : (D.rhsIdx i q 1).val = (i 1).val := by
  unfold DotDims.rhsIdx
  rw [dif_neg (show ¬(1 : Fin S4096x6144.rank) ∈ D.rhsBatch from List.not_mem_nil),
    dif_pos (show (1 : Fin S4096x6144.rank) ∈ D.rhsNonContracting from List.mem_singleton.mpr rfl)]
  rfl

/-- The matrix product at (r, j) is the sum over the contracted axis of X (r, k) · W (k, j). -/
theorem dot_apply (X : FVec Ideal S4096x4096 .f32) (W : FVec Ideal S4096x6144 .f32) (r : Fin 4096) (j : Fin 6144) :
    Host.dotGeneral D none X W (ix2 r j) = Cert.Spec.dotFull X W r j := by
  show _ = ∑ kk : Fin 4096, X (ix2 r kk) * W (ix2 kk j)
  simp only [Host.dotGeneral]
  rw [Ideal.dotGeneral_apply, ← Equiv.sum_comp (contrEquiv1 D 4096 rfl rfl).symm]
  refine Finset.sum_congr rfl fun k _ => ?_
  have hk := contrEquiv1_symm_val D 4096 rfl rfl k
  have el : D.lhsIdx (ix2 r j) ((contrEquiv1 D 4096 rfl rfl).symm k) = ix2 r k := funext fun a => Fin.ext (by
    match a with
    | ⟨0, _⟩ => exact lhs_0 _ _
    | ⟨1, _⟩ => exact (lhs_1 _ _).trans hk)
  have er : D.rhsIdx (ix2 r j) ((contrEquiv1 D 4096 rfl rfl).symm k) = ix2 k j := funext fun a => Fin.ext (by
    match a with
    | ⟨0, _⟩ => exact (rhs_0 _ _).trans hk
    | ⟨1, _⟩ => exact rhs_1 _ _)
  rw [el, er]

/-- The gate logits at (r, j) are the specification's. -/
theorem logits_apply (X : FVec Ideal S4096x4096 .f32) (W : FVec Ideal S4096x6144 .f32) (b : FVec Ideal S6144 .f32)
    (r : Fin 4096) (j : Fin 6144) : logits X W b (ix2 r j) = Cert.Spec.logit X W b r j := by
  unfold logits
  show _ = Cert.Spec.dotFull X W r j + b (ix1 j)
  rw [addf_apply, dot_apply, bias_apply]

/-! ## The two results -/

/-- The reference's new cell state at (r, q) is the specification's. -/
theorem refC_apply (X : FVec Ideal S4096x4096 .f32) (W : FVec Ideal S4096x6144 .f32) (b : FVec Ideal S6144 .f32)
    (C : FVec Ideal S4096x2048 .f32) (r : Fin 4096) (q : Fin 2048) :
    refC X W b C (ix2 r q) = Cert.Spec.newCAt X W b C r q := by
  unfold refC bandCand bandIn
  show _ = C (ix2 r q) + Cert.Spec.elu (Cert.Spec.logit X W b r (Cert.Spec.colCand q)) * Cert.Spec.sigm (Cert.Spec.logit X W b r (Cert.Spec.colIn q))
  rw [addf_apply, mulf_apply, eluV_apply, sigmV_apply, bandCand_apply, bandIn_apply, logits_apply, logits_apply]

/-- The reference's new hidden state at (r, q) is the specification's. -/
theorem refH_apply (X : FVec Ideal S4096x4096 .f32) (W : FVec Ideal S4096x6144 .f32) (b : FVec Ideal S6144 .f32)
    (C : FVec Ideal S4096x2048 .f32) (r : Fin 4096) (q : Fin 2048) :
    refH X W b C (ix2 r q) = Cert.Spec.newHAt X W b C r q := by
  unfold refH bandOut
  show _ = Ideal.tanh (Cert.Spec.newCAt X W b C r q) * Cert.Spec.sigm (Cert.Spec.logit X W b r (Cert.Spec.colOut q))
  rw [mulf_apply, tanhV_apply, refC_apply, sigmV_apply, bandOut_apply, logits_apply]

/-- The reference's new cell state is the specification's, as arrays. -/
theorem refC_eq (X : FVec Ideal S4096x4096 .f32) (W : FVec Ideal S4096x6144 .f32) (b : FVec Ideal S6144 .f32)
    (C : FVec Ideal S4096x2048 .f32) : refC X W b C = Cert.Spec.newC X W b C := by
  funext i
  obtain ⟨r, q, rfl⟩ : ∃ (r : Fin 4096) (q : Fin 2048), i = ix2 r q := ⟨i 0, i 1, eq_ix2 i⟩
  exact refC_apply X W b C r q

/-- The reference's new hidden state is the specification's, as arrays. -/
theorem refH_eq (X : FVec Ideal S4096x4096 .f32) (W : FVec Ideal S4096x6144 .f32) (b : FVec Ideal S6144 .f32)
    (C : FVec Ideal S4096x2048 .f32) : refH X W b C = Cert.Spec.newH X W b C := by
  funext i
  obtain ⟨r, q, rfl⟩ : ∃ (r : Fin 4096) (q : Fin 2048), i = ix2 r q := ⟨i 0, i 1, eq_ix2 i⟩
  exact refH_apply X W b C r q

/-! ## The run -/

/-- X = [old_h | input]: the reference's own first operation. -/
abbrev xcat (H I : (⟨S4096x2048, .f32⟩ : BufTy).Contents (Elt Ideal)) : (⟨S4096x4096, .f32⟩ : BufTy).Contents (Elt Ideal) :=
  concatenate S4096x4096 1 [⟨S4096x2048, H⟩, ⟨S4096x2048, I⟩] Facts₀.concatenates_S4096x2048_S4096x2048_S4096x4096_d1

/-- From any memory with zero counters, every weakly fair execution of the reference terminates with the first result
    at the specification's new hidden state and the second at its new cell state, of X = [old_h | input], the weights,
    the bias and the old cell state as launched, and with the five arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v24) = Cert.Spec.newH (xcat (m ((c.tc : Thread nD τ).loc main_arg3)) (m ((c.tc : Thread nD τ).loc main_arg2))) (m ((c.tc : Thread nD τ).loc main_arg0)) (m ((c.tc : Thread nD τ).loc main_arg1)) (m ((c.tc : Thread nD τ).loc main_arg4))
      ∧ r.2.mem ((c.tc : Thread nD τ).loc main_v22) = Cert.Spec.newC (xcat (m ((c.tc : Thread nD τ).loc main_arg3)) (m ((c.tc : Thread nD τ).loc main_arg2))) (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v24).trans ((v24_eq _).trans (refH_eq _ _ _ _)),
        (h c main_v22).trans ((v22_eq _).trans (refC_eq _ _ _ _)),
        (h c main_arg0).trans (arg0_eq _), (h c main_arg1).trans (arg1_eq _), (h c main_arg2).trans (arg2_eq _),
        (h c main_arg3).trans (arg3_eq _), (h c main_arg4).trans (arg4_eq _)⟩)
    (run_main m ρ)

end Cert.ReferenceIdeal.RefValue

end
-- ==== Proof.lean ====
/-
  One LSTM-like cell update, computed two ways, is one function of its inputs over the extended reals.

  Both programs form X = [old_h | input], the gate logits z = X · W + b in three column bands (input gate, output gate,
  candidate cell), and then

      new_c = old_c + elu(z_cand) · σ(z_in),        new_h = tanh(new_c) · σ(z_out),

  with σ(z) = 1 / (1 + e^(−z)) and elu(z) = z for z > 0, e^z − 1 otherwise.

  The kernel walks a 16 × 4 grid: row blocks of 256 rows, and for each of them four contraction blocks of 1024, whose
  matrix products it accumulates from zero in a buffer it keeps between grid points; at the fourth it adds the bias,
  applies the gates and writes the row block of both results back. The reference does the whole product at once. The two
  agree because a sum of extended reals may be regrouped freely (no finiteness is needed for that), the kernel's 0 − z is
  −z, the reference's e^z − 1 routed through a second selection and a multiplication by 1 is the same value, and a change
  of float format is the identity on extended reals. Both sides are shown equal to one specification of the arrays
  (Proof/Spec.lean): the kernel's in Proof/KPieces, KAcc, KOut, KFinal, the reference's in Proof/RefRun, RefValue.
  The kernel's idealization rewrote no operation, so there is nothing to preserve; the three frames are the runs with
  their results dropped.
-/
import proofs.«155219_j84705345012109_1_alg».proof.Defs
import proofs.«155219_j84705345012109_1_alg».proof.Proof.Gen.Kernel
import proofs.«155219_j84705345012109_1_alg».proof.Proof.Gen.Kernel.Skeleton
import proofs.«155219_j84705345012109_1_alg».proof.Proof.Gen.Kernel.Launch
import proofs.«155219_j84705345012109_1_alg».proof.Proof.Gen.Kernel.Points
import proofs.«155219_j84705345012109_1_alg».proof.Proof.Gen.Kernel.Frame
import proofs.«155219_j84705345012109_1_alg».proof.Proof.Gen.KernelIdeal
import proofs.«155219_j84705345012109_1_alg».proof.Proof.Gen.KernelIdeal.Skeleton
import proofs.«155219_j84705345012109_1_alg».proof.Proof.Gen.KernelIdeal.Launch
import proofs.«155219_j84705345012109_1_alg».proof.Proof.Gen.KernelIdeal.Points
import proofs.«155219_j84705345012109_1_alg».proof.Proof.Gen.KernelIdeal.Frame
import proofs.«155219_j84705345012109_1_alg».proof.Proof.Gen.ReferenceIdeal
import proofs.«155219_j84705345012109_1_alg».proof.Proof.Gen.Pre_finite_inputs
import proofs.«155219_j84705345012109_1_alg».proof.Proof.KFinal
import proofs.«155219_j84705345012109_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with its results dropped. -/
theorem frame_referenceIdeal : Cert.frame_ReferenceIdeal := fun m ρ _ =>
  (θ_run Cert.ReferenceIdeal.defs _ _).mono (fun _ h c => (h c).2.2) (Cert.ReferenceIdeal.RefValue.run m ρ)

/-- The idealization rewrote nothing. -/
theorem preserves : Cert.preserves_Kernel_KernelIdeal := trivial

/-- From memories that agree on the arguments both runs end with both results at the specification of those arguments. -/
theorem algebraic : Cert.algebraic_KernelIdeal_ReferenceIdeal := by
  intro m ρ m' ρ' _ hagree
  refine ⟨fun c => Cert.KernelIdeal.KValue.specH m c, fun c => Cert.KernelIdeal.KValue.specC m c,
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.RefValue.run m' ρ')
  · rw [(hagree c).1, (hagree c).2.1, (hagree c).2.2.1, (hagree c).2.2.2.1, (hagree c).2.2.2.2]
  · rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
